-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8x1x1 : Shape := ⟨3, ![8, 1, 1]⟩
abbrev S1024x512 : Shape := ⟨2, ![1024, 512]⟩
abbrev S1024x1 : Shape := ⟨2, ![1024, 1]⟩
abbrev S1x1024 : Shape := ⟨2, ![1, 1024]⟩
abbrev S1x1x1 : Shape := ⟨3, ![1, 1, 1]⟩
abbrev S1x1 : Shape := ⟨2, ![1, 1]⟩
abbrev S1024x1024 : Shape := ⟨2, ![1024, 1024]⟩
abbrev S1024 : Shape := ⟨1, ![1024]⟩
abbrev S1 : Shape := ⟨1, ![1]⟩

abbrev nBuf : Space → Nat
  | .hbm => 19
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x1, .f32⟩
  | .hbm, ⟨13, _⟩ => ⟨S1x8192, .f32⟩
  | .hbm, ⟨14, _⟩ => ⟨S8x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1x1x1, .f32⟩
  | .local _ .vmem, ⟨17, _⟩ => ⟨S1x1x1, .f32⟩
  | .local _ .vmem, ⟨18, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v74 : BitVec 1 := Scalar.cmpi .eq arg1 c7_i32
  let v75 : BitVec 32 := Scalar.extui v74
  let c0_i32_39 : BitVec 32 := 0#32
  let v76 : BitVec 1 := Scalar.cmpi .ne v75 c0_i32_39
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S8x1x1.size a
  hwx0_8 : ∀ i : grid0.Coords, EltTy.bits .f32 = 32 ∨ (Rect.block (s := S8x1x1) S1x1x1.size (cc0_transform_8 i) (hinb0_8 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S512x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S512x8192, .f32⟩
  | .hbm, ⟨35, _⟩ => ⟨S8192x8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x512, .f32⟩
  | .hbm, ⟨55, _⟩ => ⟨S_, .f32⟩
  | .hbm, ⟨56, _⟩ => ⟨S8192, .f32⟩
  | .hbm, ⟨57, _⟩ => ⟨S8192x512, .f32⟩
  | .hbm, ⟨58, _⟩ => ⟨S_, .f32⟩
  | .hbm, ⟨59, _⟩ => ⟨S8192, .f32⟩
  | .hbm, ⟨60, _⟩ => ⟨S512x8192, .f32⟩
  | .hbm, ⟨61, _⟩ => ⟨S8192x8192, .f32⟩
  | .hbm, ⟨62, _⟩ => ⟨S8192x1, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_cst_11 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_13 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_14 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_15 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Common.lean ====
/-
  What every part of the tiled program's run is stated over: the contents of the core's buffers when the region is
  entered (after the twelve host operations that cast the two samples, take their squared row norms and lay the norms
  out as a column and as a row), each window's block of those contents at a grid point, the fact that an input
  window's staging buffer holds that block at every point of the 8 × 8 grid whether or not the block was fetched anew
  there (a block indexed by the tile row alone is fetched once per tile row and stays put for the eight tiles of that
  row), the two conditions the body branches on — "first tile of the row" and "last tile of the row" — in closed form
  over the grid, and where the one-element result window is idle (everywhere but at a row's last tile).
-/
import proofs.«143083_j1580547972687_1_alg».proof.Proof.Gen.Kernel.Launch
import proofs.«143083_j1580547972687_1_alg».proof.Proof.Gen.Kernel.Skeleton
import proofs.«143083_j1580547972687_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the host operations before the region, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: unfetched, the block's index
    has not moved since the point before, and the body leaves the buffer as it found it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not: unfetched, the block's index
    has not moved since the point before, and the body leaves the buffer as it found it. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not: unfetched, the block's index
    has not moved since the point before, and the body leaves the buffer as it found it. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not: unfetched, the block's index
    has not moved since the point before, and the body leaves the buffer as it found it. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not: unfetched, the block's index
    has not moved since the point before, and the body leaves the buffer as it found it. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not: unfetched, the block's index
    has not moved since the point before, and the body leaves the buffer as it found it. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not: unfetched, the block's index
    has not moved since the point before, and the body leaves the buffer as it found it. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not: unfetched, the block's index
    has not moved since the point before, and the body leaves the buffer as it found it. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first tile of its row" (the column coordinate is 0), as the body computes it. -/
abbrev condFirst (i : grid0.Coords) : Prop := (Scalar.cmpi .ne (Scalar.extui (Scalar.cmpi .eq (BitVec.ofNat 32 (i 1).val) 0#32)) 0#32) = 1#1
/-- It holds at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- "This is the last tile of its row" (the column coordinate is 7), as the body computes it. -/
abbrev condLast (i : grid0.Coords) : Prop := k0_cond2 i = 1#1
/-- It holds at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## Where the result window is idle -/

/-- Away from a row's last tile the result window is idle: the body stores nothing into it there, -/
theorem idleAt8 : ∀ t : Fin cfg0.N, ¬condLast (grid0.coords t) → cfg0.idle 8 (grid0.coords t) = true := by decide +kernel
/-- and the pipeline does not write its block back there. -/
theorem noFlush8 : ∀ t : Fin cfg0.N, ¬condLast (grid0.coords t) → (cfg0.win 8).flush t = false := by decide +kernel
/-- At a row's last tile it is live. -/
theorem liveAt8 : ∀ t : Fin cfg0.N, condLast (grid0.coords t) → cfg0.idle 8 (grid0.coords t) = false := by decide +kernel

/-! ## The staging memrefs at a point, and the running-sum scratch -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1 .f32 := win0_8.stage (cfg0.slots t 8)
abbrev hs8 (t : Fin cfg0.N) : (ms8 t).IsWhole := hstage0_8 ((cfg0.slots t 8).cast nbuf0_8)
/-- The scratch the body keeps its running sum in: a whole scoped buffer of one element. -/
abbrev scM : Memref sig .tc .vmem S1x1 .f32 := Memref.whole cc0_scratch0
/-- The same as a view. -/
abbrev VS : View sig .tc .vmem S1x1 .f32 := (scM).view
/-- One staging buffer of the result window, through which its contents are stated. -/
abbrev VO : View sig .tc .vmem S1x1x1 .f32 := (Memref.whole cc0_stg8_0 : Memref sig .tc .vmem S1x1x1 .f32).view

/-- The region's plain invariant — the scoped buffers no window stages, each at some contents, and the generator
    register at some state — with the running-sum scratch spelled as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.RunA.lean ====
/-
  The body run at the FIRST tile of a tile row: the running sum is reset to zero, then this tile's part is added.
  On whole staging buffers holding the eight input blocks, the body runs to its end without a fault, leaves every input
  buffer as it was, and leaves in the scratch (the values it stored, recorded as the list of pieces written —
  the list is found by running the body symbolically, not transcribed.
-/
import proofs.«143083_j1580547972687_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch, with the proof that the body runs to the continuation holding
    them written. -/
noncomputable def kernelRunA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  :
    { LS : List (View.Piece (Elt F) S1x1 .f32) //
      ∀ (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__mmd_kernel_eq_skeleton]; unfold cc0__mmd_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8;
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Hand

end
-- ==== Proof.K.RunB.lean ====
/-
  The body run at a MIDDLE tile of a tile row: this tile's part is added to the running sum the tile before left.
  On whole staging buffers holding the eight input blocks, the body runs to its end without a fault, leaves every input
  buffer as it was, and leaves in the scratch (the values it stored, recorded as the list of pieces written —
  the list is found by running the body symbolically, not transcribed.
-/
import proofs.«143083_j1580547972687_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch, with the proof that the body runs to the continuation holding
    them written. -/
noncomputable def kernelRunB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    { LS : List (View.Piece (Elt F) S1x1 .f32) //
      ∀ (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__mmd_kernel_eq_skeleton]; unfold cc0__mmd_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Hand

end
-- ==== Proof.K.RunC.lean ====
/-
  The body run at the LAST tile of a tile row: this tile's part is added to the running sum, and the sum is copied into the result window.
  On whole staging buffers holding the eight input blocks, the body runs to its end without a fault, leaves every input
  buffer as it was, and leaves in the scratch (and in the result window's buffer the values it stored, recorded as the list of pieces written —
  the list is found by running the body symbolically, not transcribed.
-/
import proofs.«143083_j1580547972687_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result window's buffer and in the scratch, with the proof that the body runs to the continuation holding
    them written. -/
noncomputable def kernelRunC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    Σ' (L8 : List (View.Piece (Elt F) S1x1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mmd_kernel_eq_skeleton]; unfold cc0__mmd_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact HS

end Cert.Kernel.Hand

end
-- ==== Proof.K.Body.lean ====
/-
  The body's effect point by point, and the body obligation of the pipeline.

  Per case — first tile of a tile row, middle tile, last tile — what the body leaves in the running-sum scratch (and, at
  a last tile, in the result window's buffer) is read back from the pieces the symbolic run found. `outsAt` threads these
  through the 64 grid points in order: at the first tile of a row the scratch is reset and this tile's part added; at
  every other tile the part is added to what the point before left; at the last tile the sum is also copied to the
  result window. The proof data of the pipeline state: every input buffer holds its block (the body only reads it), the
  result buffer holds `outsAt`'s first component, the region invariant holds the scratch at `outsAt`'s second
  component. The two windows onto the cast first sample share that array, each holding half of it; likewise the two
  onto the cast second sample.
-/
import proofs.«143083_j1580547972687_1_alg».proof.Proof.K.RunA
import proofs.«143083_j1580547972687_1_alg».proof.Proof.K.RunB
import proofs.«143083_j1580547972687_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First tile: the pieces written to the scratch cover it. -/
theorem scoverA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (y : S1x1.Idx) :
    ∃ pc ∈ (kernelRunA c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRunA c i arg2 harg2 arg3 harg3 arg4 harg4 arg5 harg5 arg6 harg6 arg7 harg7 arg8 harg8 arg9 harg9 arg10 harg10 arg11 harg11 hc0 hc1 x0 x1 x2 x3 x4 x5 x6 x7).1 S1x1.size (by sl_kernel_rfl) y

/-- First tile: what the scratch holds afterwards. -/
def soutA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  : Vec F S1x1 .f32 :=
  VS.read (Elt F) (VS.writes (Elt F) VS.junk (kernelRunA c i arg2 harg2 arg3 harg3 arg4 harg4 arg5 harg5 arg6 harg6 arg7 harg7 arg8 harg8 arg9 harg9 arg10 harg10 arg11 harg11 hc0 hc1 x0 x1 x2 x3 x4 x5 x6 x7).1)

/-- Middle tile: the pieces written to the scratch cover it. -/
theorem scoverB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) (y : S1x1.Idx) :
    ∃ pc ∈ (kernelRunB c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRunB c i arg2 harg2 arg3 harg3 arg4 harg4 arg5 harg5 arg6 harg6 arg7 harg7 arg8 harg8 arg9 harg9 arg10 harg10 arg11 harg11 hc0 hc1 x0 x1 x2 x3 x4 x5 x6 x7 xs).1 S1x1.size (by sl_kernel_rfl) y

/-- Middle tile: what the scratch holds afterwards, given what it held before. -/
def soutB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) : Vec F S1x1 .f32 :=
  VS.read (Elt F) (VS.writes (Elt F) VS.junk (kernelRunB c i arg2 harg2 arg3 harg3 arg4 harg4 arg5 harg5 arg6 harg6 arg7 harg7 arg8 harg8 arg9 harg9 arg10 harg10 arg11 harg11 hc0 hc1 x0 x1 x2 x3 x4 x5 x6 x7 xs).1)

/-- Last tile: the pieces written to the scratch cover it, -/
theorem scoverC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) (y : S1x1.Idx) :
    ∃ pc ∈ (kernelRunC c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRunC c i arg2 harg2 arg3 harg3 arg4 harg4 arg5 harg5 arg6 harg6 arg7 harg7 arg8 harg8 arg9 harg9 arg10 harg10 arg11 harg11 hc0 hc1 x0 x1 x2 x3 x4 x5 x6 x7 xs).2.1 S1x1.size (by sl_kernel_rfl) y

/-- and the piece written to the result window's buffer covers it. -/
theorem coverC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) (y : S1x1x1.Idx) :
    ∃ pc ∈ (kernelRunC c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRunC c i arg2 harg2 arg3 harg3 arg4 harg4 arg5 harg5 arg6 harg6 arg7 harg7 arg8 harg8 arg9 harg9 arg10 harg10 arg11 harg11 hc0 hc1 x0 x1 x2 x3 x4 x5 x6 x7 xs).1 S1x1x1.size (by sl_kernel_rfl) y

/-- Last tile: what the scratch holds afterwards, -/
def soutC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) : Vec F S1x1 .f32 :=
  VS.read (Elt F) (VS.writes (Elt F) VS.junk (kernelRunC c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- and what the result window's buffer holds. -/
def outC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) : Vec F S1x1x1 .f32 :=
  VO.read (Elt F) (VO.writes (Elt F) VO.junk (kernelRunC c i arg2 harg2 arg3 harg3 arg4 harg4 arg5 harg5 arg6 harg6 arg7 harg7 arg8 harg8 arg9 harg9 arg10 harg10 arg11 harg11 hc0 hc1 x0 x1 x2 x3 x4 x5 x6 x7 xs).1)

/-- Contents nobody names: what the result window's buffer is said to hold where the window is idle (never consulted). -/
def outIdle : Vec F S1x1x1 .f32 := VO.read (Elt F) VO.junk

/-! ## The accumulation over the grid points -/

/-- What the result window's buffer and the scratch hold after the body at position `n`. -/
def outsAt (c : Dev nD) : (n : ℕ) → n < cfg0.N → Vec F S1x1x1 .f32 × Vec F S1x1 .f32
  | 0, hn => (outIdle, soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (outIdle, soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2,
         soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2)
      else
        (outIdle, soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2)

/-- At the first tile of a row. -/
theorem outsAt_A (c : Dev nD) (t : Fin cfg0.N) (h0 : t.val % 8 = 0) (h1 : ¬t.val % 8 = 7) :
    outsAt m c t.val t.isLt = (outIdle, soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- At a middle tile: over what the point before left. -/
theorem outsAt_B (c : Dev nD) (t : Fin cfg0.N) (h0 : ¬t.val % 8 = 0) (h1 : ¬t.val % 8 = 7) :
    outsAt m c t.val t.isLt = (outIdle, soutB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last tile: over what the point before left. -/
theorem outsAt_C (c : Dev nD) (t : Fin cfg0.N) (h0 : ¬t.val % 8 = 0) (h1 : t.val % 8 = 7) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2,
      soutC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the scratch holds anything; afterwards what the point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
theorem liveAt6 : ∀ t : Fin cfg0.N, cfg0.idle 6 (grid0.coords t) = false := fun _ => rfl
theorem liveAt7 : ∀ t : Fin cfg0.N, cfg0.idle 7 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: the closed forms say which case the point is in; that case's run applies, handed the input
    blocks and (away from a row's first tile) the scratch at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  by_cases h0 : t.val % 8 = 0
  · have h1 : ¬t.val % 8 = 7 := by omega
    rw [Dat.leavesExact_idle (dats m 0 c) 8 t (idleAt8 t (fun h => h1 ((hcondLast t).mp h))) (noFlush8 t (fun h => h1 ((hcondLast t).mp h)))]
    rw [outsAt_A m c t h0 h1]
    unfold soutA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

  · have hz : t.val ≠ 0 := fun hz => h0 (by rw [hz])
    by_cases h1 : t.val % 8 = 7
    · rw [show (dats m 0 c).leavesExact 8 t = owns (c : Thread nD τ) (ms8 t) fullShare ((dats m 0 c).after 8 t) from by
        unfold Dat.leavesExact; rw [liveAt8 t ((hcondLast t).mpr h1)], after8]
      rw [outsAt_C m c t h0 h1]
      unfold outC soutC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunC c (grid0.coords t) _ _ _ _ _ _ _ _ _ _ _ _ _ _ _ _ _ _ _ _ (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverC c _ _ _ _ _ _ _ _ _ _ _ _ _ _ _ _ _ _ _ _ _ _ _ _ _ _ _ _ _ _ _ _)

    · rw [Dat.leavesExact_idle (dats m 0 c) 8 t (idleAt8 t (fun h => h1 ((hcondLast t).mp h))) (noFlush8 t (fun h => h1 ((hcondLast t).mp h)))]
      rw [outsAt_B m c t h0 h1]
      unfold soutB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunB c (grid0.coords t) _ _ _ _ _ _ _ _ _ _ _ _ _ _ _ _ _ _ _ _ (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the plain one back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.Kernel.Hand

end
-- ==== Proof.K.Launch.lean ====
/-
  The run of the whole tiled program: the twelve host operations before the region, the region, the four after it.

  @main is run as three segments. The host segments run over buffers held whole. The region is entered by sorting the
  core's unscoped buffers into the windows' arrays and the rest; the cast first sample is the array of TWO windows (its
  rows are read once as the tile row's block and once as the tile column's), so its buffer is split into two halves, one
  per window, and likewise the cast second sample. Both are only read, so neither half is needed whole again. At the
  region's exit the result array — one number per tile row, written back at each row's last tile — joins the four
  buffers the operations after the region use; the two argument arrays, which nothing writes, are kept aside and read
  back unchanged at the end.
-/
import proofs.«143083_j1580547972687_1_alg».proof.Proof.K.Body
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations before the region: the core owing nothing, and the
    generator register. -/
abbrev R (c : Dev nD) : sProp 𝕄 :=
  iprop((∃ W, owes (c : Thread nD τ) (0 : CellTallies nD τ sig Unit) W) ∗ ∃ r, prngReg c r)

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- THE FIRST HOST SEGMENT: the casts, the squared row norms and their two layouts, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    hostOps0_fresh (fun c b => m (c, b)) R

/-! ## The arrays of the nine windows, one by one -/

/-- The pipeline's arrays at contents `G`: the first cast sample in two halves, the second likewise, the four layouts of
    the squared norms and the result array whole. -/
theorem arrays_chain (c : Dev nD) (G : (w : Fin cfg0.W) → Buf (Elt F) ((cfg0.win w).arr.view.loc (c : Thread nD τ))) :
    ((dats m 0 c).arrays G : sProp 𝕄) = iprop(
      (((c : Thread nD τ).loc main_v0) ↦{fullShare.left} G 0) ∗ (((c : Thread nD τ).loc main_v0) ↦{fullShare.right} G 1)
      ∗ (((c : Thread nD τ).loc main_v1) ↦{fullShare.left} G 2) ∗ (((c : Thread nD τ).loc main_v1) ↦{fullShare.right} G 3)
      ∗ (((c : Thread nD τ).loc main_v6) ↦{fullShare} G 4) ∗ (((c : Thread nD τ).loc main_v7) ↦{fullShare} G 5)
      ∗ (((c : Thread nD τ).loc main_v8) ↦{fullShare} G 6) ∗ (((c : Thread nD τ).loc main_v9) ↦{fullShare} G 7)
      ∗ (((c : Thread nD τ).loc main_v10) ↦{fullShare} G 8)) := by
  rw [show ((dats m 0 c).arrays G : sProp 𝕄) = bigSep Finset.univ fun w : Fin 9 =>
      ((((c : Thread nD τ).loc (Pipeline.arrRef spec0 w)) ↦{(dats m 0 c).share w} G w : sProp 𝕄)) from by
    unfold Dat.arrays
    exact bigSep_congr fun w _ => by rw [(arr_whole0 w).set_eq_univ]]
  rw [bigSep_W0]
  rfl

/-- The distinct buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄) = iprop(
      (((c : Thread nD τ).loc main_v0) ↦{fullShare} W main_v0) ∗ (((c : Thread nD τ).loc main_v1) ↦{fullShare} W main_v1)
      ∗ (((c : Thread nD τ).loc main_v6) ↦{fullShare} W main_v6) ∗ (((c : Thread nD τ).loc main_v7) ↦{fullShare} W main_v7)
      ∗ (((c : Thread nD τ).loc main_v8) ↦{fullShare} W main_v8) ∗ (((c : Thread nD τ).loc main_v9) ↦{fullShare} W main_v9)
      ∗ (((c : Thread nD τ).loc main_v10) ↦{fullShare} W main_v10)) := by
  unfold Pipeline.arrBufs
  exact bigSep_eq_bigSepL_of_eq [main_v0, main_v1, main_v6, main_v7, main_v8, main_v9, main_v10] (by decide) (by decide) _

/-! ## After the region -/

/-- The result array after the region: its entry contents overwritten, tile row by tile row, by what the body left in
    the result window at each row's last tile. -/
def outFinal (c : Dev nD) : Buf (Elt F) ((c : Thread nD τ).loc main_v10) := (dats m 0 c).arrAt 8 cfg0.N

/-- The buffers when the region is left: as entered, the result array at its final contents. -/
def Vfin (c : Dev nD) : Valuation τ sig (Elt F) := Function.update (V0 m c) (Proc.devRef .tc main_v10) (outFinal m c)

theorem Vfin_v10 (c : Dev nD) : Vfin m c (Proc.devRef .tc main_v10) = outFinal m c := Function.update_self ..

theorem Vfin_of_ne (c : Dev nD) (b : Ref sig .tc) (hb : b ≠ main_v10) : Vfin m c (Proc.devRef .tc b) = V m c b :=
  Function.update_of_ne (StableHlo.devRef_ne_of_ne hb) ..

/-- The five buffers the operations after the region touch. -/
abbrev tailList : List (DevRef τ sig) :=
  [Proc.devRef .tc main_cst_1, Proc.devRef .tc main_v10, Proc.devRef .tc main_v11, Proc.devRef .tc main_cst_2, Proc.devRef .tc main_v12]
def tailRefs : Finset (DevRef τ sig) := (tailList).toFinset

theorem hostOps1_in : ∀ op ∈ (hostOps1 : List (HloOp τ sig (Elt F))), op.bufs ⊆ tailRefs := by
  intro op h
  simp only [hostOps1, List.mem_cons, List.mem_nil_iff, or_false] at h
  rcases h with rfl | rfl | rfl | rfl <;> simp only [StableHlo.nullary_bufs, StableHlo.binary_bufs] <;> decide

/-- Those five held at a valuation, one by one. -/
theorem held_tail (c : Dev nD) (W : Valuation τ sig (Elt F)) :
    (StableHlo.held (c : Thread nD τ) tailRefs W : sProp 𝕄) = iprop(
      (((c : Thread nD τ).1, Proc.devRef .tc main_cst_1) ↦{fullShare} W (Proc.devRef .tc main_cst_1))
      ∗ (((c : Thread nD τ).1, Proc.devRef .tc main_v10) ↦{fullShare} W (Proc.devRef .tc main_v10))
      ∗ (((c : Thread nD τ).1, Proc.devRef .tc main_v11) ↦{fullShare} W (Proc.devRef .tc main_v11))
      ∗ (((c : Thread nD τ).1, Proc.devRef .tc main_cst_2) ↦{fullShare} W (Proc.devRef .tc main_cst_2))
      ∗ (((c : Thread nD τ).1, Proc.devRef .tc main_v12) ↦{fullShare} W (Proc.devRef .tc main_v12))) := by
  unfold StableHlo.held tailRefs
  exact bigSep_eq_bigSepL tailList (by decide) _

/-- The two argument arrays, which nothing writes, kept aside from the region's entry to the end. -/
abbrev Keep (c : Dev nD) : sProp 𝕄 :=
  iprop((((c : Thread nD τ).loc main_arg0) ↦{fullShare} V m c main_arg0) ∗ (((c : Thread nD τ).loc main_arg1) ↦{fullShare} V m c main_arg1))

/-- What rides beside the five buffers through the operations after the region. -/
abbrev R1 (c : Dev nD) : sProp 𝕄 :=
  iprop(Keep m c ∗ ∃ W, owes (c : Thread nD τ) (0 : CellTallies nD τ sig Unit) W)

/-- THE LAST HOST SEGMENT: the sum of the eight tile rows and the division by the number of pairs. -/
def seg1 : Pipeline.HostSeg (Name := ℕ) (U := UR sig nD τ) (pcfgs (F := F)) defs₀ 𝒱₀ L lv :=
  Pipeline.HostSeg.ofOps _ _ _ _ _ tailRefs hostOps1 hostOps1_in hostOps1_fresh (Vfin m) (R1 m)

-- `iapply` of a library lemma stated over `cfgs p` at the pinned configuration unifies only when unification may
-- unfold plain definitions in a metavariable's type
set_option backward.isDefEq.respectTransparency.types false in
set_option maxHeartbeats 2000000 in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) tailRefs (Vfin m c) ∗ R1 m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c), arrBufs_chain, arrays_chain]
    iintro ⟨⟨⟨⟨H0, H1, H6, H7, H8, H9, H10⟩, Hrest⟩, ⟨HO, Hg⟩⟩, -, -⟩
    ihave H0s := (pointsTo_share (PosShare.mem_left_op_right fullShare)).1 $$ H0
    icases H0s with ⟨H0l, H0r⟩
    ihave H1s := (pointsTo_share (PosShare.mem_left_op_right fullShare)).1 $$ H1
    icases H1s with ⟨H1l, H1r⟩
    imodintro
    isplitl [H0l H0r H1l H1r H6 H7 H8 H9 H10]
    · isplitl [H0l]; · iexact H0l
      isplitl [H0r]; · iexact H0r
      isplitl [H1l]; · iexact H1l
      isplitl [H1r]; · iexact H1r
      isplitl [H6]; · iexact H6
      isplitl [H7]; · iexact H7
      isplitl [H8]; · iexact H8
      isplitl [H9]; · iexact H9
      iexact H10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    exact (show _ ⊢ Pipeline.ΦA spec0 c from by
      unfold Pipeline.ΦA
      iintro ⟨Hg, -, Hr⟩
      isplitl [Hr] <;> iassumption).trans (hin m c)
  hout c := by
    exact (hout m c).trans (by
      rw [Pipeline.ownSems0_none]; unfold Pipeline.ΦA
      iintro ⟨Hr, Hg⟩
      isplitl [Hg]; · iexact Hg
      isplitr; · iempintro
      iexact Hr)
  hexit c := by
    rw [arrays_chain, unscopedRest0_eq, held_tail, Vfin_v10,
      Vfin_of_ne m c main_cst_1 (by decide), Vfin_of_ne m c main_v11 (by decide), Vfin_of_ne m c main_cst_2 (by decide), Vfin_of_ne m c main_v12 (by decide)]
    iintro ⟨⟨-, -, -, -, -, -, -, -, A8⟩, HO, -, ⟨Ha0, Ha1, -, -, -, -, -, -, Hc1, H11, Hc2, H12⟩⟩
    imodintro
    isplitl [A8 Hc1 H11 Hc2 H12]
    · isplitl [Hc1]; · iexact Hc1
      isplitl [A8]; · iexact A8
      isplitl [H11]; · iexact H11
      isplitl [Hc2]; · iexact Hc2
      iexact H12
    isplitl [Ha0 Ha1]
    · isplitl [Ha0] <;> iassumption
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the end holds: the five buffers after the last operations, and the two argument arrays. -/
abbrev Tend (c : Dev nD) : sProp 𝕄 :=
  iprop(StableHlo.held (c : Thread nD τ) tailRefs (StableHlo.after hostOps1 (Vfin m c)) ∗ Keep m c)

/-- The final state: the result buffer holds what the last operations make of the region's result array, and both
    argument arrays are as the region found them. -/
def QC : PUnit × MemSt nD τ sig (Elt F) → Prop := fun r =>
  ∀ c : Dev nD, r.2.mem ((c : Thread nD τ).loc main_v12) = StableHlo.after hostOps1 (Vfin m c) (Proc.devRef .tc main_v12)
    ∧ r.2.mem ((c : Thread nD τ).loc main_arg0) = V m c main_arg0
    ∧ r.2.mem ((c : Thread nD τ).loc main_arg1) = V m c main_arg1

set_option backward.isDefEq.respectTransparency.types false in
set_option maxHeartbeats 2000000 in
/-- From any memory with zero counters every weakly fair execution of @main terminates, nothing faulting, in a state
    of that description. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tend m)
    (hch := ⟨fun _ => .rfl, fun _ => .rfl, fun _ => .rfl, fun c => by
      show iprop(StableHlo.held (c : Thread nD τ) tailRefs (StableHlo.after hostOps1 (Vfin m c)) ∗ R1 m c)
        ⊢ iprop(Tend m c ∗ ∃ W, owes (c : Thread nD τ) (0 : CellTallies nD τ sig Unit) W)
      iintro ⟨Hh, ⟨Hk, HO⟩⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v12) = StableHlo.after hostOps1 (Vfin m c) (Proc.devRef .tc main_v12)
      ∧ s.mem ((c : Thread nD τ).loc main_arg0) = V m c main_arg0
      ∧ s.mem ((c : Thread nD τ).loc main_arg1) = V m c main_arg1)
    (hfin := fun c s' => by
      dsimp only [Tend]; rw [held_tail]
      iintro ⟨⟨⟨-, -, -, -, H12⟩, Ha0, Ha1⟩, HSI⟩
      icombine HSI H12 gives %h12
      icombine HSI Ha0 gives %h0
      icombine HSI Ha1 gives %h1
      imodintro
      isplitr; · ipureintro; exact ⟨Buf.eq_of_forall_mem_univ h12, Buf.eq_of_forall_mem_univ h0, Buf.eq_of_forall_mem_univ h1⟩
      iexact HSI)
    (hQ := fun _ h => h)

end Cert.Kernel.Hand

end
-- ==== Proof.K.Frame.lean ====
/-
  The frame claim of the tiled program, for any reading of its floats: every weakly fair execution terminates, nothing
  faults, and the two argument arrays end as they started — no host operation writes an argument, and the region only
  reads the casts of them.
-/
import proofs.«143083_j1580547972687_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes the first argument, -/
theorem V_arg0 (c : Dev nD) : V m c main_arg0 = m ((c : Thread nD τ).loc main_arg0) := by
  show StableHlo.after hostOps0 (fun b => m (c, b)) (Proc.devRef .tc main_arg0) = _
  after_results

/-- nor the second. -/
theorem V_arg1 (c : Dev nD) : V m c main_arg1 = m ((c : Thread nD τ).loc main_arg1) := by
  show StableHlo.after hostOps0 (fun b => m (c, b)) (Proc.devRef .tc main_arg1) = _
  after_results

/-- The run with its post read at the launch memory: the result buffer at what the last host operations make of the
    region's result array, both arguments unchanged. -/
theorem run : θ_run defs (onTc (τ := τ) (main (F := F))) ⟨m, fun _ => 0, ρ⟩ (fun r => ∀ c : Dev nD,
      r.2.mem ((c.tc : Thread nD τ).loc main_v12) = StableHlo.after hostOps1 (Vfin m c) (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, ((h c).2.1).trans (V_arg0 m c), ((h c).2.2).trans (V_arg1 m c)⟩) (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.KI.Common.lean ====
/-
  What every part of the tiled program's run is stated over: the contents of the core's buffers when the region is
  entered (after the twelve host operations that cast the two samples, take their squared row norms and lay the norms
  out as a column and as a row), each window's block of those contents at a grid point, the fact that an input
  window's staging buffer holds that block at every point of the 8 × 8 grid whether or not the block was fetched anew
  there (a block indexed by the tile row alone is fetched once per tile row and stays put for the eight tiles of that
  row), the two conditions the body branches on — "first tile of the row" and "last tile of the row" — in closed form
  over the grid, and where the one-element result window is idle (everywhere but at a row's last tile).
-/
import proofs.«143083_j1580547972687_1_alg».proof.Proof.Gen.KernelIdeal.Launch
import proofs.«143083_j1580547972687_1_alg».proof.Proof.Gen.KernelIdeal.Skeleton
import proofs.«143083_j1580547972687_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the host operations before the region, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: unfetched, the block's index
    has not moved since the point before, and the body leaves the buffer as it found it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not: unfetched, the block's index
    has not moved since the point before, and the body leaves the buffer as it found it. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not: unfetched, the block's index
    has not moved since the point before, and the body leaves the buffer as it found it. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not: unfetched, the block's index
    has not moved since the point before, and the body leaves the buffer as it found it. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not: unfetched, the block's index
    has not moved since the point before, and the body leaves the buffer as it found it. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not: unfetched, the block's index
    has not moved since the point before, and the body leaves the buffer as it found it. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not: unfetched, the block's index
    has not moved since the point before, and the body leaves the buffer as it found it. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not: unfetched, the block's index
    has not moved since the point before, and the body leaves the buffer as it found it. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first tile of its row" (the column coordinate is 0), as the body computes it. -/
abbrev condFirst (i : grid0.Coords) : Prop := (Scalar.cmpi .ne (Scalar.extui (Scalar.cmpi .eq (BitVec.ofNat 32 (i 1).val) 0#32)) 0#32) = 1#1
/-- It holds at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- "This is the last tile of its row" (the column coordinate is 7), as the body computes it. -/
abbrev condLast (i : grid0.Coords) : Prop := k0_cond2 i = 1#1
/-- It holds at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## Where the result window is idle -/

/-- Away from a row's last tile the result window is idle: the body stores nothing into it there, -/
theorem idleAt8 : ∀ t : Fin cfg0.N, ¬condLast (grid0.coords t) → cfg0.idle 8 (grid0.coords t) = true := by decide +kernel
/-- and the pipeline does not write its block back there. -/
theorem noFlush8 : ∀ t : Fin cfg0.N, ¬condLast (grid0.coords t) → (cfg0.win 8).flush t = false := by decide +kernel
/-- At a row's last tile it is live. -/
theorem liveAt8 : ∀ t : Fin cfg0.N, condLast (grid0.coords t) → cfg0.idle 8 (grid0.coords t) = false := by decide +kernel

/-! ## The staging memrefs at a point, and the running-sum scratch -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1 .f32 := win0_8.stage (cfg0.slots t 8)
abbrev hs8 (t : Fin cfg0.N) : (ms8 t).IsWhole := hstage0_8 ((cfg0.slots t 8).cast nbuf0_8)
/-- The scratch the body keeps its running sum in: a whole scoped buffer of one element. -/
abbrev scM : Memref sig .tc .vmem S1x1 .f32 := Memref.whole cc0_scratch0
/-- The same as a view. -/
abbrev VS : View sig .tc .vmem S1x1 .f32 := (scM).view
/-- One staging buffer of the result window, through which its contents are stated. -/
abbrev VO : View sig .tc .vmem S1x1x1 .f32 := (Memref.whole cc0_stg8_0 : Memref sig .tc .vmem S1x1x1 .f32).view

/-- The region's plain invariant — the scoped buffers no window stages, each at some contents, and the generator
    register at some state — with the running-sum scratch spelled as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The body run at the FIRST tile of a tile row: the running sum is reset to zero, then this tile's part is added.
  On whole staging buffers holding the eight input blocks, the body runs to its end without a fault, leaves every input
  buffer as it was, and leaves in the scratch (the values it stored, recorded as the list of pieces written —
  the list is found by running the body symbolically, not transcribed.
-/
import proofs.«143083_j1580547972687_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch, with the proof that the body runs to the continuation holding
    them written. -/
noncomputable def kernelRunA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  :
    { LS : List (View.Piece (Elt F) S1x1 .f32) //
      ∀ (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__mmd_kernel_eq_skeleton]; unfold cc0__mmd_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8;
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Hand

end
-- ==== Proof.KI.RunB.lean ====
/-
  The body run at a MIDDLE tile of a tile row: this tile's part is added to the running sum the tile before left.
  On whole staging buffers holding the eight input blocks, the body runs to its end without a fault, leaves every input
  buffer as it was, and leaves in the scratch (the values it stored, recorded as the list of pieces written —
  the list is found by running the body symbolically, not transcribed.
-/
import proofs.«143083_j1580547972687_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch, with the proof that the body runs to the continuation holding
    them written. -/
noncomputable def kernelRunB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    { LS : List (View.Piece (Elt F) S1x1 .f32) //
      ∀ (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__mmd_kernel_eq_skeleton]; unfold cc0__mmd_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Hand

end
-- ==== Proof.KI.RunC.lean ====
/-
  The body run at the LAST tile of a tile row: this tile's part is added to the running sum, and the sum is copied into the result window.
  On whole staging buffers holding the eight input blocks, the body runs to its end without a fault, leaves every input
  buffer as it was, and leaves in the scratch (and in the result window's buffer the values it stored, recorded as the list of pieces written —
  the list is found by running the body symbolically, not transcribed.
-/
import proofs.«143083_j1580547972687_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result window's buffer and in the scratch, with the proof that the body runs to the continuation holding
    them written. -/
noncomputable def kernelRunC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    Σ' (L8 : List (View.Piece (Elt F) S1x1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mmd_kernel_eq_skeleton]; unfold cc0__mmd_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact HS

end Cert.KernelIdeal.Hand

end
-- ==== Proof.KI.Body.lean ====
/-
  The body's effect point by point, and the body obligation of the pipeline.

  Per case — first tile of a tile row, middle tile, last tile — what the body leaves in the running-sum scratch (and, at
  a last tile, in the result window's buffer) is read back from the pieces the symbolic run found. `outsAt` threads these
  through the 64 grid points in order: at the first tile of a row the scratch is reset and this tile's part added; at
  every other tile the part is added to what the point before left; at the last tile the sum is also copied to the
  result window. The proof data of the pipeline state: every input buffer holds its block (the body only reads it), the
  result buffer holds `outsAt`'s first component, the region invariant holds the scratch at `outsAt`'s second
  component. The two windows onto the cast first sample share that array, each holding half of it; likewise the two
  onto the cast second sample.
-/
import proofs.«143083_j1580547972687_1_alg».proof.Proof.KI.RunA
import proofs.«143083_j1580547972687_1_alg».proof.Proof.KI.RunB
import proofs.«143083_j1580547972687_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First tile: the pieces written to the scratch cover it. -/
theorem scoverA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (y : S1x1.Idx) :
    ∃ pc ∈ (kernelRunA c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRunA c i arg2 harg2 arg3 harg3 arg4 harg4 arg5 harg5 arg6 harg6 arg7 harg7 arg8 harg8 arg9 harg9 arg10 harg10 arg11 harg11 hc0 hc1 x0 x1 x2 x3 x4 x5 x6 x7).1 S1x1.size (by sl_kernel_rfl) y

/-- First tile: what the scratch holds afterwards. -/
def soutA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  : Vec F S1x1 .f32 :=
  VS.read (Elt F) (VS.writes (Elt F) VS.junk (kernelRunA c i arg2 harg2 arg3 harg3 arg4 harg4 arg5 harg5 arg6 harg6 arg7 harg7 arg8 harg8 arg9 harg9 arg10 harg10 arg11 harg11 hc0 hc1 x0 x1 x2 x3 x4 x5 x6 x7).1)

/-- Middle tile: the pieces written to the scratch cover it. -/
theorem scoverB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) (y : S1x1.Idx) :
    ∃ pc ∈ (kernelRunB c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRunB c i arg2 harg2 arg3 harg3 arg4 harg4 arg5 harg5 arg6 harg6 arg7 harg7 arg8 harg8 arg9 harg9 arg10 harg10 arg11 harg11 hc0 hc1 x0 x1 x2 x3 x4 x5 x6 x7 xs).1 S1x1.size (by sl_kernel_rfl) y

/-- Middle tile: what the scratch holds afterwards, given what it held before. -/
def soutB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) : Vec F S1x1 .f32 :=
  VS.read (Elt F) (VS.writes (Elt F) VS.junk (kernelRunB c i arg2 harg2 arg3 harg3 arg4 harg4 arg5 harg5 arg6 harg6 arg7 harg7 arg8 harg8 arg9 harg9 arg10 harg10 arg11 harg11 hc0 hc1 x0 x1 x2 x3 x4 x5 x6 x7 xs).1)

/-- Last tile: the pieces written to the scratch cover it, -/
theorem scoverC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) (y : S1x1.Idx) :
    ∃ pc ∈ (kernelRunC c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRunC c i arg2 harg2 arg3 harg3 arg4 harg4 arg5 harg5 arg6 harg6 arg7 harg7 arg8 harg8 arg9 harg9 arg10 harg10 arg11 harg11 hc0 hc1 x0 x1 x2 x3 x4 x5 x6 x7 xs).2.1 S1x1.size (by sl_kernel_rfl) y

/-- and the piece written to the result window's buffer covers it. -/
theorem coverC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) (y : S1x1x1.Idx) :
    ∃ pc ∈ (kernelRunC c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRunC c i arg2 harg2 arg3 harg3 arg4 harg4 arg5 harg5 arg6 harg6 arg7 harg7 arg8 harg8 arg9 harg9 arg10 harg10 arg11 harg11 hc0 hc1 x0 x1 x2 x3 x4 x5 x6 x7 xs).1 S1x1x1.size (by sl_kernel_rfl) y

/-- Last tile: what the scratch holds afterwards, -/
def soutC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) : Vec F S1x1 .f32 :=
  VS.read (Elt F) (VS.writes (Elt F) VS.junk (kernelRunC c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- and what the result window's buffer holds. -/
def outC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) : Vec F S1x1x1 .f32 :=
  VO.read (Elt F) (VO.writes (Elt F) VO.junk (kernelRunC c i arg2 harg2 arg3 harg3 arg4 harg4 arg5 harg5 arg6 harg6 arg7 harg7 arg8 harg8 arg9 harg9 arg10 harg10 arg11 harg11 hc0 hc1 x0 x1 x2 x3 x4 x5 x6 x7 xs).1)

/-- Contents nobody names: what the result window's buffer is said to hold where the window is idle (never consulted). -/
def outIdle : Vec F S1x1x1 .f32 := VO.read (Elt F) VO.junk

/-! ## The accumulation over the grid points -/

/-- What the result window's buffer and the scratch hold after the body at position `n`. -/
def outsAt (c : Dev nD) : (n : ℕ) → n < cfg0.N → Vec F S1x1x1 .f32 × Vec F S1x1 .f32
  | 0, hn => (outIdle, soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (outIdle, soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2,
         soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2)
      else
        (outIdle, soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2)

/-- At the first tile of a row. -/
theorem outsAt_A (c : Dev nD) (t : Fin cfg0.N) (h0 : t.val % 8 = 0) (h1 : ¬t.val % 8 = 7) :
    outsAt m c t.val t.isLt = (outIdle, soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- At a middle tile: over what the point before left. -/
theorem outsAt_B (c : Dev nD) (t : Fin cfg0.N) (h0 : ¬t.val % 8 = 0) (h1 : ¬t.val % 8 = 7) :
    outsAt m c t.val t.isLt = (outIdle, soutB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last tile: over what the point before left. -/
theorem outsAt_C (c : Dev nD) (t : Fin cfg0.N) (h0 : ¬t.val % 8 = 0) (h1 : t.val % 8 = 7) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2,
      soutC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the scratch holds anything; afterwards what the point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
theorem liveAt6 : ∀ t : Fin cfg0.N, cfg0.idle 6 (grid0.coords t) = false := fun _ => rfl
theorem liveAt7 : ∀ t : Fin cfg0.N, cfg0.idle 7 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: the closed forms say which case the point is in; that case's run applies, handed the input
    blocks and (away from a row's first tile) the scratch at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  by_cases h0 : t.val % 8 = 0
  · have h1 : ¬t.val % 8 = 7 := by omega
    rw [Dat.leavesExact_idle (dats m 0 c) 8 t (idleAt8 t (fun h => h1 ((hcondLast t).mp h))) (noFlush8 t (fun h => h1 ((hcondLast t).mp h)))]
    rw [outsAt_A m c t h0 h1]
    unfold soutA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) _ _ _ _ _ _ _ _ _ _ _ _ _ _ _ _ _ _ _ _ ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

  · have hz : t.val ≠ 0 := fun hz => h0 (by rw [hz])
    by_cases h1 : t.val % 8 = 7
    · rw [show (dats m 0 c).leavesExact 8 t = owns (c : Thread nD τ) (ms8 t) fullShare ((dats m 0 c).after 8 t) from by
        unfold Dat.leavesExact; rw [liveAt8 t ((hcondLast t).mpr h1)], after8]
      rw [outsAt_C m c t h0 h1]
      unfold outC soutC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunC c (grid0.coords t) _ _ _ _ _ _ _ _ _ _ _ _ _ _ _ _ _ _ _ _ (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverC c _ _ _ _ _ _ _ _ _ _ _ _ _ _ _ _ _ _ _ _ _ _ _ _ _ _ _ _ _ _ _ _)

    · rw [Dat.leavesExact_idle (dats m 0 c) 8 t (idleAt8 t (fun h => h1 ((hcondLast t).mp h))) (noFlush8 t (fun h => h1 ((hcondLast t).mp h)))]
      rw [outsAt_B m c t h0 h1]
      unfold soutB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunB c (grid0.coords t) _ _ _ _ _ _ _ _ _ _ _ _ _ _ _ _ _ _ _ _ (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the plain one back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.KernelIdeal.Hand

end
-- ==== Proof.KI.Launch.lean ====
/-
  The run of the whole tiled program: the twelve host operations before the region, the region, the four after it.

  @main is run as three segments. The host segments run over buffers held whole. The region is entered by sorting the
  core's unscoped buffers into the windows' arrays and the rest; the cast first sample is the array of TWO windows (its
  rows are read once as the tile row's block and once as the tile column's), so its buffer is split into two halves, one
  per window, and likewise the cast second sample. Both are only read, so neither half is needed whole again. At the
  region's exit the result array — one number per tile row, written back at each row's last tile — joins the four
  buffers the operations after the region use; the two argument arrays, which nothing writes, are kept aside and read
  back unchanged at the end.
-/
import proofs.«143083_j1580547972687_1_alg».proof.Proof.KI.Body
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations before the region: the core owing nothing, and the
    generator register. -/
abbrev R (c : Dev nD) : sProp 𝕄 :=
  iprop((∃ W, owes (c : Thread nD τ) (0 : CellTallies nD τ sig Unit) W) ∗ ∃ r, prngReg c r)

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- THE FIRST HOST SEGMENT: the casts, the squared row norms and their two layouts, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    hostOps0_fresh (fun c b => m (c, b)) R

/-! ## The arrays of the nine windows, one by one -/

/-- The pipeline's arrays at contents `G`: the first cast sample in two halves, the second likewise, the four layouts of
    the squared norms and the result array whole. -/
theorem arrays_chain (c : Dev nD) (G : (w : Fin cfg0.W) → Buf (Elt F) ((cfg0.win w).arr.view.loc (c : Thread nD τ))) :
    ((dats m 0 c).arrays G : sProp 𝕄) = iprop(
      (((c : Thread nD τ).loc main_v0) ↦{fullShare.left} G 0) ∗ (((c : Thread nD τ).loc main_v0) ↦{fullShare.right} G 1)
      ∗ (((c : Thread nD τ).loc main_v1) ↦{fullShare.left} G 2) ∗ (((c : Thread nD τ).loc main_v1) ↦{fullShare.right} G 3)
      ∗ (((c : Thread nD τ).loc main_v6) ↦{fullShare} G 4) ∗ (((c : Thread nD τ).loc main_v7) ↦{fullShare} G 5)
      ∗ (((c : Thread nD τ).loc main_v8) ↦{fullShare} G 6) ∗ (((c : Thread nD τ).loc main_v9) ↦{fullShare} G 7)
      ∗ (((c : Thread nD τ).loc main_v10) ↦{fullShare} G 8)) := by
  rw [show ((dats m 0 c).arrays G : sProp 𝕄) = bigSep Finset.univ fun w : Fin 9 =>
      ((((c : Thread nD τ).loc (Pipeline.arrRef spec0 w)) ↦{(dats m 0 c).share w} G w : sProp 𝕄)) from by
    unfold Dat.arrays
    exact bigSep_congr fun w _ => by rw [(arr_whole0 w).set_eq_univ]]
  rw [bigSep_W0]
  rfl

/-- The distinct buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄) = iprop(
      (((c : Thread nD τ).loc main_v0) ↦{fullShare} W main_v0) ∗ (((c : Thread nD τ).loc main_v1) ↦{fullShare} W main_v1)
      ∗ (((c : Thread nD τ).loc main_v6) ↦{fullShare} W main_v6) ∗ (((c : Thread nD τ).loc main_v7) ↦{fullShare} W main_v7)
      ∗ (((c : Thread nD τ).loc main_v8) ↦{fullShare} W main_v8) ∗ (((c : Thread nD τ).loc main_v9) ↦{fullShare} W main_v9)
      ∗ (((c : Thread nD τ).loc main_v10) ↦{fullShare} W main_v10)) := by
  unfold Pipeline.arrBufs
  exact bigSep_eq_bigSepL_of_eq [main_v0, main_v1, main_v6, main_v7, main_v8, main_v9, main_v10] (by decide) (by decide) _

/-! ## After the region -/

/-- The result array after the region: its entry contents overwritten, tile row by tile row, by what the body left in
    the result window at each row's last tile. -/
def outFinal (c : Dev nD) : Buf (Elt F) ((c : Thread nD τ).loc main_v10) := (dats m 0 c).arrAt 8 cfg0.N

/-- The buffers when the region is left: as entered, the result array at its final contents. -/
def Vfin (c : Dev nD) : Valuation τ sig (Elt F) := Function.update (V0 m c) (Proc.devRef .tc main_v10) (outFinal m c)

theorem Vfin_v10 (c : Dev nD) : Vfin m c (Proc.devRef .tc main_v10) = outFinal m c := Function.update_self ..

theorem Vfin_of_ne (c : Dev nD) (b : Ref sig .tc) (hb : b ≠ main_v10) : Vfin m c (Proc.devRef .tc b) = V m c b :=
  Function.update_of_ne (StableHlo.devRef_ne_of_ne hb) ..

/-- The five buffers the operations after the region touch. -/
abbrev tailList : List (DevRef τ sig) :=
  [Proc.devRef .tc main_cst_1, Proc.devRef .tc main_v10, Proc.devRef .tc main_v11, Proc.devRef .tc main_cst_2, Proc.devRef .tc main_v12]
def tailRefs : Finset (DevRef τ sig) := (tailList).toFinset

theorem hostOps1_in : ∀ op ∈ (hostOps1 : List (HloOp τ sig (Elt F))), op.bufs ⊆ tailRefs := by
  intro op h
  simp only [hostOps1, List.mem_cons, List.mem_nil_iff, or_false] at h
  rcases h with rfl | rfl | rfl | rfl <;> simp only [StableHlo.nullary_bufs, StableHlo.binary_bufs] <;> decide

/-- Those five held at a valuation, one by one. -/
theorem held_tail (c : Dev nD) (W : Valuation τ sig (Elt F)) :
    (StableHlo.held (c : Thread nD τ) tailRefs W : sProp 𝕄) = iprop(
      (((c : Thread nD τ).1, Proc.devRef .tc main_cst_1) ↦{fullShare} W (Proc.devRef .tc main_cst_1))
      ∗ (((c : Thread nD τ).1, Proc.devRef .tc main_v10) ↦{fullShare} W (Proc.devRef .tc main_v10))
      ∗ (((c : Thread nD τ).1, Proc.devRef .tc main_v11) ↦{fullShare} W (Proc.devRef .tc main_v11))
      ∗ (((c : Thread nD τ).1, Proc.devRef .tc main_cst_2) ↦{fullShare} W (Proc.devRef .tc main_cst_2))
      ∗ (((c : Thread nD τ).1, Proc.devRef .tc main_v12) ↦{fullShare} W (Proc.devRef .tc main_v12))) := by
  unfold StableHlo.held tailRefs
  exact bigSep_eq_bigSepL tailList (by decide) _

/-- The two argument arrays, which nothing writes, kept aside from the region's entry to the end. -/
abbrev Keep (c : Dev nD) : sProp 𝕄 :=
  iprop((((c : Thread nD τ).loc main_arg0) ↦{fullShare} V m c main_arg0) ∗ (((c : Thread nD τ).loc main_arg1) ↦{fullShare} V m c main_arg1))

/-- What rides beside the five buffers through the operations after the region. -/
abbrev R1 (c : Dev nD) : sProp 𝕄 :=
  iprop(Keep m c ∗ ∃ W, owes (c : Thread nD τ) (0 : CellTallies nD τ sig Unit) W)

/-- THE LAST HOST SEGMENT: the sum of the eight tile rows and the division by the number of pairs. -/
def seg1 : Pipeline.HostSeg (Name := ℕ) (U := UR sig nD τ) (pcfgs (F := F)) defs₀ 𝒱₀ L lv :=
  Pipeline.HostSeg.ofOps _ _ _ _ _ tailRefs hostOps1 hostOps1_in hostOps1_fresh (Vfin m) (R1 m)

-- `iapply` of a library lemma stated over `cfgs p` at the pinned configuration unifies only when unification may
-- unfold plain definitions in a metavariable's type
set_option backward.isDefEq.respectTransparency.types false in
set_option maxHeartbeats 2000000 in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) tailRefs (Vfin m c) ∗ R1 m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c), arrBufs_chain, arrays_chain]
    iintro ⟨⟨⟨⟨H0, H1, H6, H7, H8, H9, H10⟩, Hrest⟩, ⟨HO, Hg⟩⟩, -, -⟩
    ihave H0s := (pointsTo_share (PosShare.mem_left_op_right fullShare)).1 $$ H0
    icases H0s with ⟨H0l, H0r⟩
    ihave H1s := (pointsTo_share (PosShare.mem_left_op_right fullShare)).1 $$ H1
    icases H1s with ⟨H1l, H1r⟩
    imodintro
    isplitl [H0l H0r H1l H1r H6 H7 H8 H9 H10]
    · isplitl [H0l]; · iexact H0l
      isplitl [H0r]; · iexact H0r
      isplitl [H1l]; · iexact H1l
      isplitl [H1r]; · iexact H1r
      isplitl [H6]; · iexact H6
      isplitl [H7]; · iexact H7
      isplitl [H8]; · iexact H8
      isplitl [H9]; · iexact H9
      iexact H10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    exact (show _ ⊢ Pipeline.ΦA spec0 c from by
      unfold Pipeline.ΦA
      iintro ⟨Hg, -, Hr⟩
      isplitl [Hr] <;> iassumption).trans (hin m c)
  hout c := by
    exact (hout m c).trans (by
      rw [Pipeline.ownSems0_none]; unfold Pipeline.ΦA
      iintro ⟨Hr, Hg⟩
      isplitl [Hg]; · iexact Hg
      isplitr; · iempintro
      iexact Hr)
  hexit c := by
    rw [arrays_chain, unscopedRest0_eq, held_tail, Vfin_v10,
      Vfin_of_ne m c main_cst_1 (by decide), Vfin_of_ne m c main_v11 (by decide), Vfin_of_ne m c main_cst_2 (by decide), Vfin_of_ne m c main_v12 (by decide)]
    iintro ⟨⟨-, -, -, -, -, -, -, -, A8⟩, HO, -, ⟨Ha0, Ha1, -, -, -, -, -, -, Hc1, H11, Hc2, H12⟩⟩
    imodintro
    isplitl [A8 Hc1 H11 Hc2 H12]
    · isplitl [Hc1]; · iexact Hc1
      isplitl [A8]; · iexact A8
      isplitl [H11]; · iexact H11
      isplitl [Hc2]; · iexact Hc2
      iexact H12
    isplitl [Ha0 Ha1]
    · isplitl [Ha0] <;> iassumption
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the end holds: the five buffers after the last operations, and the two argument arrays. -/
abbrev Tend (c : Dev nD) : sProp 𝕄 :=
  iprop(StableHlo.held (c : Thread nD τ) tailRefs (StableHlo.after hostOps1 (Vfin m c)) ∗ Keep m c)

/-- The final state: the result buffer holds what the last operations make of the region's result array, and both
    argument arrays are as the region found them. -/
def QC : PUnit × MemSt nD τ sig (Elt F) → Prop := fun r =>
  ∀ c : Dev nD, r.2.mem ((c : Thread nD τ).loc main_v12) = StableHlo.after hostOps1 (Vfin m c) (Proc.devRef .tc main_v12)
    ∧ r.2.mem ((c : Thread nD τ).loc main_arg0) = V m c main_arg0
    ∧ r.2.mem ((c : Thread nD τ).loc main_arg1) = V m c main_arg1

set_option backward.isDefEq.respectTransparency.types false in
set_option maxHeartbeats 2000000 in
/-- From any memory with zero counters every weakly fair execution of @main terminates, nothing faulting, in a state
    of that description. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tend m)
    (hch := ⟨fun _ => .rfl, fun _ => .rfl, fun _ => .rfl, fun c => by
      show iprop(StableHlo.held (c : Thread nD τ) tailRefs (StableHlo.after hostOps1 (Vfin m c)) ∗ R1 m c)
        ⊢ iprop(Tend m c ∗ ∃ W, owes (c : Thread nD τ) (0 : CellTallies nD τ sig Unit) W)
      iintro ⟨Hh, ⟨Hk, HO⟩⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v12) = StableHlo.after hostOps1 (Vfin m c) (Proc.devRef .tc main_v12)
      ∧ s.mem ((c : Thread nD τ).loc main_arg0) = V m c main_arg0
      ∧ s.mem ((c : Thread nD τ).loc main_arg1) = V m c main_arg1)
    (hfin := fun c s' => by
      dsimp only [Tend]; rw [held_tail]
      iintro ⟨⟨⟨-, -, -, -, H12⟩, Ha0, Ha1⟩, HSI⟩
      icombine HSI H12 gives %h12
      icombine HSI Ha0 gives %h0
      icombine HSI Ha1 gives %h1
      imodintro
      isplitr; · ipureintro; exact ⟨Buf.eq_of_forall_mem_univ h12, Buf.eq_of_forall_mem_univ h0, Buf.eq_of_forall_mem_univ h1⟩
      iexact HSI)
    (hQ := fun _ h => h)

end Cert.KernelIdeal.Hand

end
-- ==== Proof.KI.Frame.lean ====
/-
  The frame claim of the tiled program, for any reading of its floats: every weakly fair execution terminates, nothing
  faults, and the two argument arrays end as they started — no host operation writes an argument, and the region only
  reads the casts of them.
-/
import proofs.«143083_j1580547972687_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes the first argument, -/
theorem V_arg0 (c : Dev nD) : V m c main_arg0 = m ((c : Thread nD τ).loc main_arg0) := by
  show StableHlo.after hostOps0 (fun b => m (c, b)) (Proc.devRef .tc main_arg0) = _
  after_results

/-- nor the second. -/
theorem V_arg1 (c : Dev nD) : V m c main_arg1 = m ((c : Thread nD τ).loc main_arg1) := by
  show StableHlo.after hostOps0 (fun b => m (c, b)) (Proc.devRef .tc main_arg1) = _
  after_results

/-- The run with its post read at the launch memory: the result buffer at what the last host operations make of the
    region's result array, both arguments unchanged. -/
theorem run : θ_run defs (onTc (τ := τ) (main (F := F))) ⟨m, fun _ => 0, ρ⟩ (fun r => ∀ c : Dev nD,
      r.2.mem ((c.tc : Thread nD τ).loc main_v12) = StableHlo.after hostOps1 (Vfin m c) (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, ((h c).2.1).trans (V_arg0 m c), ((h c).2.2).trans (V_arg1 m c)⟩) (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.KI.Pieces.lean ====
/-
  What each case of the body leaves, in terms of the body's arithmetic: the pieces the symbolic runs found are whole-buffer
  stores, so what the scratch holds after a tile is the one payload of the body's last store — this tile's part added to
  the running sum it loaded (at a row's first tile: to the zero it had just stored) — and what the result window holds
  after a row's last tile is the scratch's value, reshaped.
-/
import proofs.«143083_j1580547972687_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Middle tile: the scratch ends at the running sum plus this tile's part. -/
theorem soutB_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    soutB c i arg2 harg2 arg3 harg3 arg4 harg4 arg5 harg5 arg6 harg6 arg7 harg7 arg8 harg8 arg9 harg9 arg10 harg10 arg11 harg11 hc0 hc1 x0 x1 x2 x3 x4 x5 x6 x7 xs = k0_pay8 (k0_pay3 x0) (k0_pay4 x0 x1 x4 x5) (k0_pay5 x3) (k0_pay6 x2 x3) (k0_pay7 x6) x7 x4 x7 xs := by
  unfold soutB
  rw [View.read_writes_eq_canon _ _ _ (scoverB c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRunB
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S1024x1) hz2, View.ld_unit_zero (S := S1x1024) hz2, View.ld_unit_zero (S := S1x1) hz2]
  try rfl

/-- Last tile: the same for the scratch, -/
theorem soutC_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    soutC c i arg2 harg2 arg3 harg3 arg4 harg4 arg5 harg5 arg6 harg6 arg7 harg7 arg8 harg8 arg9 harg9 arg10 harg10 arg11 harg11 hc0 hc1 x0 x1 x2 x3 x4 x5 x6 x7 xs = k0_pay8 (k0_pay3 x0) (k0_pay4 x0 x1 x4 x5) (k0_pay5 x3) (k0_pay6 x2 x3) (k0_pay7 x6) x7 x4 x7 xs := by
  unfold soutC
  rw [View.read_writes_eq_canon _ _ _ (scoverC c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRunC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S1024x1) hz2, View.ld_unit_zero (S := S1x1024) hz2, View.ld_unit_zero (S := S1x1) hz2]
  try rfl

/-- and the result window's buffer ends at that sum, reshaped to the window's one-element block. -/
theorem outC_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : ¬condFirst i) (hc1 : condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  (xs : Vec F S1x1 .f32) :
    outC c i arg2 harg2 arg3 harg3 arg4 harg4 arg5 harg5 arg6 harg6 arg7 harg7 arg8 harg8 arg9 harg9 arg10 harg10 arg11 harg11 hc0 hc1 x0 x1 x2 x3 x4 x5 x6 x7 xs = k0_pay1 (k0_pay8 (k0_pay3 x0) (k0_pay4 x0 x1 x4 x5) (k0_pay5 x3) (k0_pay6 x2 x3) (k0_pay7 x6) x7 x4 x7 xs) := by
  unfold outC
  rw [View.read_writes_eq_canon _ _ _ (coverC c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRunC
  dsimp only
  sl_unfold_words
  rw [View.canon_unit_zero hz3, View.readCov_unit_zero _ hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S1024x1) hz2, View.ld_unit_zero (S := S1x1024) hz2, View.ld_unit_zero (S := S1x1) hz2]
  try rfl

/-- First tile: the scratch ends at zero plus this tile's part. -/
theorem soutA_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1x1x1 .f32) (harg10 : arg10.IsWhole) (arg11 : Memref sig .tc .vmem S1x1 .f32) (harg11 : arg11.IsWhole) (hc0 : condFirst i) (hc1 : ¬condLast i)
    (x0 : Vec F S1024x512 .bf16) (x1 : Vec F S1024x512 .bf16) (x2 : Vec F S1024x512 .bf16) (x3 : Vec F S1024x512 .bf16) (x4 : Vec F S1024x1 .f32) (x5 : Vec F S1x1024 .f32) (x6 : Vec F S1024x1 .f32) (x7 : Vec F S1x1024 .f32)  :
    soutA c i arg2 harg2 arg3 harg3 arg4 harg4 arg5 harg5 arg6 harg6 arg7 harg7 arg8 harg8 arg9 harg9 arg10 harg10 arg11 harg11 hc0 hc1 x0 x1 x2 x3 x4 x5 x6 x7 = k0_pay8 (k0_pay3 x0) (k0_pay4 x0 x1 x4 x5) (k0_pay5 x3) (k0_pay6 x2 x3) (k0_pay7 x6) x7 x4 x7 (k0_pay2 (F := F)) := by
  unfold soutA
  rw [View.read_writes_eq_canon _ _ _ (scoverA c i arg2 harg2 arg3 harg3 arg4 harg4 arg5 harg5 arg6 harg6 arg7 harg7 arg8 harg8 arg9 harg9 arg10 harg10 arg11 harg11 hc0 hc1 x0 x1 x2 x3 x4 x5 x6 x7)]
  unfold kernelRunA
  dsimp only
  sl_unfold_words
  rw [View.canon_cons_unit_zero hz2, View.readCov_unit_zero _ hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S1024x1) hz2, View.ld_unit_zero (S := S1x1024) hz2, View.ld_unit_zero (S := S1x1) hz2]
  try rfl

end Cert.KernelIdeal.Hand

end
-- ==== Proof.Consts.lean ====
/-
  The float literals the two programs spell, as the extended reals their bit patterns denote: `0`, `2`, `1024`,
  `−1/1024` (the tiled program's exponent scale; `−2⁻¹⁰`, a dyadic, so the pattern is the number exactly) and
  `67108864 = 8192²` (the number of pairs). Stated once here; every other module reads them from here.
-/
import Idealize.ShloMosaic.PureOps.Ideal

noncomputable section

namespace Cert.Mmd.Consts

open Idealize.ShloMosaic

/-- `+0.0` denotes `0`. -/
theorem ofBits_zero : Ideal.ofBits .f32 0x00000000#32 = 0 := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- `1024.0` denotes the real `1024`. -/
theorem ofBits_1024 : Ideal.ofBits .f32 0x44800000#32 = ((1024 : ℝ) : EReal) := by
  simp [Ideal.ofBits, Ideal.ieee, -EReal.coe_mul]; norm_num

/-- `-9.765625e-4` denotes the real `−1/1024`. -/
theorem ofBits_neg_inv_1024 : Ideal.ofBits .f32 0xBA800000#32 = ((-(1 / 1024) : ℝ) : EReal) := by
  simp [Ideal.ofBits, Ideal.ieee, -EReal.coe_mul]; norm_num

/-- `67108864.0` denotes the real `67108864`. -/
theorem ofBits_pairs : Ideal.ofBits .f32 0x4C800000#32 = ((67108864 : ℝ) : EReal) := by
  simp [Ideal.ofBits, Ideal.ieee, -EReal.coe_mul]; norm_num

end Cert.Mmd.Consts

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.TileOps.lean ====
/-
  The three non-pointwise steps of one tile of the Gaussian kernel sum, read at the extended reals for real blocks:
  the product of a block of rows with the transpose of another (a contraction over the 512 columns of both) is the
  matrix of inner products; the scaled exponential of "column norm + row norm − 2 · inner product" is the Gaussian
  kernel of the pair; and the sum along the lanes followed by the sum along the rows is the double sum over the tile.
  Every value is the coercion of a real, so each step pushes the coercion outward.
-/
import Idealize.ShloMosaic.Lib.ValueIdx
import Idealize.ShloMosaic.Lib.ValueLayout
import Idealize.ShloMosaic.PureOps.Ideal.Laws
import proofs.«143083_j1580547972687_1_alg».proof.Proof.Gen.KernelIdeal
import proofs.«143083_j1580547972687_1_alg».proof.Proof.Consts
import proofs.«143083_j1580547972687_1_alg».proof.Proof.LibKeepdims

noncomputable section

open scoped BigOperators

namespace Cert.Mmd.TileOps

open Idealize.ShloMosaic Idealize.ShloMosaic.ValueIdx Cert.KernelIdeal Cert.KernelIdeal.Gen Cert.Keepdims

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On the rows axis the left operand's index at output index `i` reads `i`'s first coordinate. -/
theorem lhs_rows (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- On the rows axis the right operand's index at output index `i` reads `i`'s second coordinate. -/
theorem rhs_rows (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- Rows times rows transposed: entry (p, q) of the product into a zero accumulator is the inner product of row `p` of
    the left block with row `q` of the right block. -/
theorem matmul_rows_apply (lhs rhs : FVec Ideal S1024x512 .bf16) (x y : Fin 1024 → Fin 512 → ℝ)
    (hl : ∀ r k, lhs (ix2 r k) = (x r k : EReal)) (hr : ∀ c k, rhs (ix2 c k) = (y c k : EReal)) (p q : Fin 1024) :
    matmul dot_S1024x512_S1024x512_S1024x1024_1_1_0_0_n_n none lhs rhs (constant (F := Ideal) S1024x1024 .f32 0x00000000#32) (ix2 p q)
      = ((∑ k : Fin 512, x p k * y q k : ℝ) : EReal) := by
  simp only [matmul]
  rw [Ideal.matmul_constant_zero_apply,
    ← Equiv.sum_comp (contrEquiv1 dot_S1024x512_S1024x512_S1024x1024_1_1_0_0_n_n 512 rfl rfl).symm, coe_sum]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k :=
    funext fun a => Fin.ext (by
      match a with
      | ⟨0, _⟩ => exact lhs_rows _ _
      | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k :=
    funext fun a => Fin.ext (by
      match a with
      | ⟨0, _⟩ => exact rhs_rows _ _
      | ⟨1, _⟩ => exact (dot_S1024x512_S1024x512_S1024x1024_1_1_0_0_n_n.rhsIdx_val_of_single rfl _ _).trans hk)
  rw [el, er, hl, hr, EReal.coe_mul]

/-- The Gaussian kernel of one pair: "column norm + row norm − 2 · inner product", scaled by `−1/1024` and
    exponentiated, read at (p, q). -/
theorem gauss_apply (M : FVec Ideal S1024x1024 .f32) (col : FVec Ideal S1024x1 .f32) (rw_ : FVec Ideal S1x1024 .f32)
    (g : Fin 1024 → Fin 1024 → ℝ) (c r : Fin 1024 → ℝ)
    (hM : ∀ p q, M (ix2 p q) = (g p q : EReal)) (hc : ∀ p, col (ix2 p 0) = (c p : EReal))
    (hr : ∀ q, rw_ (ix2 0 q) = (r q : EReal)) (p q : Fin 1024) :
    exp (mulf (subf (addf (broadcastTo S1024x1024 col broadcasts_S1024x1_S1024x1024)
            (broadcastTo S1024x1024 rw_ broadcasts_S1x1024_S1024x1024))
          (mulf (broadcast S1024x1024 (Scalar.ofBits (F := Ideal) .f32 0x40000000#32)) M))
        (broadcast S1024x1024 (Scalar.ofBits (F := Ideal) .f32 0xBA800000#32))) (ix2 p q)
      = ((Real.exp ((c p + r q - 2 * g p q) * (-(1 / 1024))) : ℝ) : EReal) := by
  show Ideal.exp ((broadcastTo S1024x1024 col broadcasts_S1024x1_S1024x1024 (ix2 p q)
      + broadcastTo S1024x1024 rw_ broadcasts_S1x1024_S1024x1024 (ix2 p q)
      - Ideal.ofBits .f32 0x40000000#32 * M (ix2 p q)) * Ideal.ofBits .f32 0xBA800000#32) = _
  rw [broadcastTo_a1_ab_apply, broadcastTo_1b_ab_apply, hM, hc, hr, Consts.ofBits_two, Consts.ofBits_neg_inv_1024,
    ← EReal.coe_mul, ← EReal.coe_add, ← EReal.coe_sub, ← EReal.coe_mul, Ideal.exp_coe]

/-- The lane sums then the row sum: the sum along axis 1 kept as a column, summed along axis 0 and kept as a 1 × 1
    block, is the double sum over the tile. -/
theorem total_apply (E : FVec Ideal S1024x1024 .f32) (e : Fin 1024 → Fin 1024 → ℝ)
    (hE : ∀ p q, E (ix2 p q) = (e p q : EReal)) (j : S1x1.Idx) :
    shapeCast S1x1 (multiReduction (F := Ideal) .add [0] S1
        (shapeCast S1024x1 (multiReduction (F := Ideal) .add [1] S1024 E 0x00000000#32 reduces_S1024x1024_S1024 (.inl rfl) rfl)
          shapeCasts_S1024_S1024x1)
        0x00000000#32 reduces_S1024x1_S1 (.inl rfl) rfl) shapeCasts_S1_S1x1 j
      = ((∑ p : Fin 1024, ∑ q : Fin 1024, e p q : ℝ) : EReal) := by
  obtain ⟨u, v, rfl⟩ : ∃ (u v : Fin 1), j = ix2 u v := ⟨j 0, j 1, eq_ix2 j⟩
  refine (shapeCast_a_1a_apply _ shapeCasts_S1_S1x1 u v).trans ?_
  refine (Ideal.multiReduction_add_single _ 0x00000000#32 reduces_S1024x1_S1 (.inl rfl) rfl (ix1 v)).trans ?_
  show ∑ p : Fin 1024, _ = _
  rw [coe_sum]
  refine Finset.sum_congr rfl fun p _ => ?_
  have e0 : reduces_S1024x1_S1.lift (ix1 v) p = ix2 p v :=
    funext fun a => Fin.ext (by match a with | ⟨0, _⟩ => rfl | ⟨1, _⟩ => rfl)
  rw [e0]
  refine (shapeCast_a_a1_apply _ shapeCasts_S1024_S1024x1 p v).trans ?_
  refine (Ideal.multiReduction_add_single _ 0x00000000#32 reduces_S1024x1024_S1024 (.inl rfl) rfl (ix1 p)).trans ?_
  show ∑ q : Fin 1024, _ = _
  rw [coe_sum]
  refine Finset.sum_congr rfl fun q _ => ?_
  have e1 : reduces_S1024x1024_S1024.lift (ix1 p) q = ix2 p q :=
    funext fun a => Fin.ext (by match a with | ⟨0, _⟩ => rfl | ⟨1, _⟩ => rfl)
  rw [e1, hE]

end Cert.Mmd.TileOps

end
-- ==== Proof.Payload.lean ====
/-
  What the tiled program's body stores at one grid point, read at the extended reals for real blocks.

  The body takes the rows of the two samples that belong to tile row I and tile column J, with their squared norms as
  a column and as a row, forms the three Gaussian-kernel tile sums T(a,a), T(b,b), T(a,b) — each the double sum over the
  1024 × 1024 pairs of the exponential of "norm + norm − 2 · inner product" scaled by −1/1024 — and adds
  T(a,a) + T(b,b) − 2 · T(a,b) onto the running sum. All values are coercions of reals.
-/
import proofs.«143083_j1580547972687_1_alg».proof.Proof.Gen.KernelIdeal.Skeleton
import proofs.«143083_j1580547972687_1_alg».proof.Proof.TileOps

noncomputable section

open scoped BigOperators

namespace Cert.Mmd.Payload

open Idealize.ShloMosaic Idealize.ShloMosaic.ValueIdx Cert.KernelIdeal Cert.KernelIdeal.Gen Cert.Mmd.TileOps

/-- The Gaussian-kernel sum over one tile: `c` the squared norms of the tile's rows, `r` those of its columns, `x`, `y`
    the two blocks of rows. -/
def T (c r : Fin 1024 → ℝ) (x y : Fin 1024 → Fin 512 → ℝ) : ℝ :=
  ∑ p : Fin 1024, ∑ q : Fin 1024, Real.exp ((c p + r q - 2 * ∑ k : Fin 512, x p k * y q k) * (-(1 / 1024)))

/-- The body's first store: the running sum starts at zero. -/
theorem pay2_eq : k0_pay2 (F := Ideal) = fun _ => (0 : EReal) := by
  funext j
  unfold k0_pay2
  rw [shapeCast_self]
  exact Consts.ofBits_zero

/-- The last store copies the running sum's one entry. -/
theorem pay1_eq (v77 : Vec Ideal S1x1 .f32) (c : EReal) (h : ∀ j, v77 j = c) : k0_pay1 (F := Ideal) v77 = fun _ => c := by
  funext j
  unfold k0_pay1
  obtain ⟨a, b, d, rfl⟩ : ∃ (a b d : Fin 1), j = ix3 a b d := ⟨j 0, j 1, j 2, eq_ix3 j⟩
  exact (shapeCast_ab_1ab_apply v77 shapeCasts_S1x1_S1x1x1 a b d).trans (h _)

/-- A block passed through a cast to its own shape is unchanged. -/
theorem pay3_eq (v3 : Vec Ideal S1024x512 .bf16) : k0_pay3 (F := Ideal) v3 = v3 := shapeCast_self _ _
theorem pay5_eq (v27 : Vec Ideal S1024x512 .bf16) : k0_pay5 (F := Ideal) v27 = v27 := shapeCast_self _ _
theorem pay7_eq (v30 : Vec Ideal S1024x1 .f32) : k0_pay7 (F := Ideal) v30 = v30 := shapeCast_self _ _

/-- The first tile sum, T(a,a): rows of tile row I against rows of tile column J of the first sample. -/
theorem pay4_eq (xi xj : Fin 1024 → Fin 512 → ℝ) (ca ra : Fin 1024 → ℝ)
    (v3 v5 : Vec Ideal S1024x512 .bf16) (v8 : Vec Ideal S1024x1 .f32) (v10 : Vec Ideal S1x1024 .f32)
    (h3 : ∀ r k, v3 (ix2 r k) = (xi r k : EReal)) (h5 : ∀ r k, v5 (ix2 r k) = (xj r k : EReal))
    (h8 : ∀ r, v8 (ix2 r 0) = (ca r : EReal)) (h10 : ∀ c, v10 (ix2 0 c) = (ra c : EReal)) :
    k0_pay4 (F := Ideal) v3 v5 v8 v10 = fun _ => ((T ca ra xi xj : ℝ) : EReal) := by
  funext j
  unfold k0_pay4
  rw [pay3_eq]
  exact total_apply _ _ (fun p q => gauss_apply _ _ _ _ ca ra
    (fun p q => matmul_rows_apply _ _ xi xj h3 (fun c k => by rw [shapeCast_self]; exact h5 c k) p q)
    (fun p => by rw [shapeCast_self]; exact h8 p) (fun q => by rw [shapeCast_self]; exact h10 q) p q) j

/-- The inner products of the second sample's two blocks. -/
theorem pay6_apply (yi yj : Fin 1024 → Fin 512 → ℝ) (v25 v27 : Vec Ideal S1024x512 .bf16)
    (h25 : ∀ r k, v25 (ix2 r k) = (yi r k : EReal)) (h27 : ∀ r k, v27 (ix2 r k) = (yj r k : EReal)) (p q : Fin 1024) :
    k0_pay6 (F := Ideal) v25 v27 (ix2 p q) = ((∑ k : Fin 512, yi p k * yj q k : ℝ) : EReal) := by
  unfold k0_pay6
  rw [pay5_eq]
  exact matmul_rows_apply _ _ yi yj (fun r k => by rw [shapeCast_self]; exact h25 r k) h27 p q

/-- What the body adds onto the running sum, over abstract earlier values: `t4` the first tile sum, `g` the inner
    products of the second sample's blocks. -/
theorem pay8_gen (xi yj : Fin 1024 → Fin 512 → ℝ) (ca cb rb : Fin 1024 → ℝ) (g : Fin 1024 → Fin 1024 → ℝ) (t4 acc : ℝ)
    (v4 v28 : FVec Ideal S1024x512 .bf16) (v24 : FVec Ideal S1x1 .f32) (v29 : FVec Ideal S1024x1024 .f32)
    (v31 : FVec Ideal S1024x1 .f32) (v32 : Vec Ideal S1x1024 .f32) (v48 : Vec Ideal S1024x1 .f32)
    (v50 : Vec Ideal S1x1024 .f32) (v69 : Vec Ideal S1x1 .f32)
    (h4 : ∀ r k, v4 (ix2 r k) = (xi r k : EReal)) (h28 : ∀ r k, v28 (ix2 r k) = (yj r k : EReal))
    (h24 : ∀ j, v24 j = (t4 : EReal)) (h29 : ∀ p q, v29 (ix2 p q) = (g p q : EReal))
    (h31 : ∀ r, v31 (ix2 r 0) = (cb r : EReal)) (h32 : ∀ c, v32 (ix2 0 c) = (rb c : EReal))
    (h48 : ∀ r, v48 (ix2 r 0) = (ca r : EReal)) (h50 : ∀ c, v50 (ix2 0 c) = (rb c : EReal))
    (h69 : ∀ j, v69 j = (acc : EReal)) :
    k0_pay8 (F := Ideal) v4 v24 v28 v29 v31 v32 v48 v50 v69
      = fun _ => ((acc + (t4 + (∑ p : Fin 1024, ∑ q : Fin 1024, Real.exp ((cb p + rb q - 2 * g p q) * (-(1 / 1024))))
          - 2 * T ca rb xi yj) : ℝ) : EReal) := by
  funext j
  unfold k0_pay8 T
  rw [shapeCast_self]
  simp only [addf_apply, subf_apply, mulf_apply, broadcast_apply]
  rw [h69 j, h24 j]
  refine (congrArg₂ (fun a b : EReal => (acc : EReal) + ((t4 : EReal) + a - Scalar.ofBits (F := Ideal) .f32 0x40000000#32 * b))
    (total_apply _ _ (fun p q => gauss_apply _ _ _ g cb rb h29 h31
      (fun q => by rw [shapeCast_self]; exact h32 q) p q) j)
    (total_apply _ _ (fun p q => gauss_apply _ _ _ _ ca rb
      (fun p q => matmul_rows_apply _ _ xi yj h4 h28 p q)
      (fun p => by rw [shapeCast_self]; exact h48 p) (fun q => by rw [shapeCast_self]; exact h50 q) p q) j)).trans ?_
  show (acc : EReal) + ((t4 : EReal) + _ - Ideal.ofBits .f32 0x40000000#32 * _) = _
  rw [Consts.ofBits_two, ← EReal.coe_mul, ← EReal.coe_add, ← EReal.coe_sub, ← EReal.coe_add]

/-- What the body stores: the running sum plus T(a,a) + T(b,b) − 2 · T(a,b) of the tile. -/
theorem pay8_eq (xi xj yi yj : Fin 1024 → Fin 512 → ℝ) (ca ra cb rb : Fin 1024 → ℝ) (acc : ℝ)
    (v3 v5 v25 v27 : Vec Ideal S1024x512 .bf16) (v8 v30 v48 : Vec Ideal S1024x1 .f32)
    (v10 v32 v50 : Vec Ideal S1x1024 .f32) (v69 : Vec Ideal S1x1 .f32)
    (h3 : ∀ r k, v3 (ix2 r k) = (xi r k : EReal)) (h5 : ∀ r k, v5 (ix2 r k) = (xj r k : EReal))
    (h25 : ∀ r k, v25 (ix2 r k) = (yi r k : EReal)) (h27 : ∀ r k, v27 (ix2 r k) = (yj r k : EReal))
    (h8 : ∀ r, v8 (ix2 r 0) = (ca r : EReal)) (h10 : ∀ c, v10 (ix2 0 c) = (ra c : EReal))
    (h30 : ∀ r, v30 (ix2 r 0) = (cb r : EReal)) (h32 : ∀ c, v32 (ix2 0 c) = (rb c : EReal))
    (h48 : ∀ r, v48 (ix2 r 0) = (ca r : EReal)) (h50 : ∀ c, v50 (ix2 0 c) = (rb c : EReal))
    (h69 : ∀ j, v69 j = (acc : EReal)) :
    k0_pay8 (F := Ideal) (k0_pay3 v3) (k0_pay4 v3 v5 v8 v10) (k0_pay5 v27) (k0_pay6 v25 v27) (k0_pay7 v30) v32 v48 v50 v69
      = fun _ => ((acc + (T ca ra xi xj + T cb rb yi yj - 2 * T ca rb xi yj) : ℝ) : EReal) := by
  rw [pay3_eq, pay5_eq, pay7_eq, pay4_eq xi xj ca ra v3 v5 v8 v10 h3 h5 h8 h10]
  exact pay8_gen xi yj ca cb rb (fun p q => ∑ k : Fin 512, yi p k * yj q k) (T ca ra xi xj) acc v3 v27 _ _ v30 v32 v48 v50 v69
    h3 h27 (fun _ => rfl) (pay6_apply yi yj v25 v27 h25 h27) h30 h32 h48 h50 h69

end Cert.Mmd.Payload

end
-- ==== Proof.Spec.lean ====
/-
  The mathematics both programs compute, over the REALS (the precondition makes every input a real, so every
  intermediate value of either program is a real and the extended reals never meet an infinity).

  For row vectors `x i`, `y j` in R^512 (8192 rows each) the squared distance through the Gram matrix is
  `‖x i‖² + ‖y j‖² − 2 ⟨x i, y j⟩`, and the Gaussian kernel mean of two samples is the mean over all 8192² pairs of
  `exp(−dist² / 1024)`. The loss is `mean(a,a) + mean(b,b) − 2 · mean(a,b)`.

  The tiled form cuts the 8192 × 8192 pairs into 8 × 8 tiles of 1024 × 1024 pairs, sums over a tile the three
  exponentials combined as `aa + bb − 2·ab` (the exponent written as the product with `−1/1024`), adds the tiles of a
  tile row one after the other onto `0`, adds the eight tile rows, and divides once by 8192² = 67108864.
-/
import Mathlib.Analysis.SpecialFunctions.Exp
import Mathlib.Algebra.BigOperators.Fin

noncomputable section

open scoped BigOperators

namespace Cert.Mmd

/-- A sample: 8192 rows of 512 reals. -/
abbrev Sample := Fin 8192 → Fin 512 → ℝ

/-- The squared norm of row `i`. -/
def rowSq (x : Sample) (i : Fin 8192) : ℝ := ∑ k : Fin 512, x i k * x i k

/-- The inner product of row `i` of `x` with row `j` of `y`. -/
def gram (x y : Sample) (i j : Fin 8192) : ℝ := ∑ k : Fin 512, x i k * y j k

/-- The squared distance of the two rows, through the Gram matrix. -/
def sqd (x y : Sample) (i j : Fin 8192) : ℝ := rowSq x i + rowSq y j - 2 * gram x y i j

/-- The Gaussian kernel mean of two samples, as the reference spells it: negate, divide by 1024, exponentiate, sum over
    all pairs, divide by the number of pairs. -/
def kmean (x y : Sample) : ℝ := (∑ i : Fin 8192, ∑ j : Fin 8192, Real.exp (-(sqd x y i j) / 1024)) / 67108864

/-- The loss as the reference computes it. -/
def refVal (a b : Sample) : ℝ := kmean a a + kmean b b - 2 * kmean a b

/-- Row `r` of tile row `I`: the global row `1024 · I + r`. -/
def row (I : Fin 8) (r : Fin 1024) : Fin 8192 := ⟨1024 * I.val + r.val, by omega⟩

/-- The sum of the Gaussian kernel over the pairs of tile `(I, J)`, rows first then columns, the exponent as the product
    with `−1/1024`. -/
def tileSum (x y : Sample) (I J : Fin 8) : ℝ :=
  ∑ r : Fin 1024, ∑ c : Fin 1024, Real.exp (sqd x y (row I r) (row J c) * (-(1 / 1024)))

/-- What one tile adds to its tile row's running sum. -/
def tilePart (a b : Sample) (I J : Fin 8) : ℝ := tileSum a a I J + tileSum b b I J - 2 * tileSum a b I J

/-- The running sum of tile row `I` after its first `n` tiles: `((0 + part 0) + part 1) + …`. -/
def rowAcc (a b : Sample) (I : Fin 8) : ℕ → ℝ
  | 0 => 0
  | n + 1 => rowAcc a b I n + (if h : n < 8 then tilePart a b I ⟨n, h⟩ else 0)

/-- The loss as the tiled program computes it. -/
def kerVal (a b : Sample) : ℝ := (∑ I : Fin 8, rowAcc a b I 8) / 67108864

end Cert.Mmd

end
-- ==== Proof.Blocks.lean ====
/-
  Each input window's block at a grid point, read at explicit coordinates: the 64 points are the 8 × 8 tiles, point `t`
  being tile row `t / 8` and tile column `t % 8`; a window indexed by the tile row holds rows `1024 · (t / 8) + r` of its
  array, a window indexed by the tile column holds rows (or, for a norm laid out as a row, columns) `1024 · (t % 8) + q`.
  A block's coordinate in the array is always "block index × block size + coordinate inside the block".
-/
import proofs.«143083_j1580547972687_1_alg».proof.Proof.KI.Common
import proofs.«143083_j1580547972687_1_alg».proof.Proof.Spec
import Idealize.ShloMosaic.Lib.ValueIdx

set_option maxRecDepth 16384

noncomputable section

namespace Cert.Mmd.Blocks

open Cert.KernelIdeal Cert.KernelIdeal.Gen Cert.KernelIdeal.Hand
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The grid has 64 points. -/
theorem t_lt (t : Fin cfg0.N) : t.val < 64 := by
  have h := t.isLt
  have hN : cfg0.N = 64 := N_0
  omega

/-- The printed index maps, decided over the grid: the windows indexed by the tile row sit at block `t / 8`, those
    indexed by the tile column at block `t % 8`, along the axis they move on, and at block 0 along the other. -/
theorem idx0 : ∀ t : Fin cfg0.N, win0_0.index t (0 : Fin 2) = t.val / 8 ∧ win0_0.index t (1 : Fin 2) = 0 :=
  (by decide +kernel : ∀ t : Fin grid0.N, _)

theorem idx1 : ∀ t : Fin cfg0.N, win0_1.index t (0 : Fin 2) = t.val % 8 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx5 : ∀ t : Fin cfg0.N, win0_5.index t (0 : Fin 2) = 0 ∧ win0_5.index t (1 : Fin 2) = t.val % 8 :=
  (by decide +kernel : ∀ t : Fin grid0.N, _)
theorem idx6 : ∀ t : Fin cfg0.N, win0_6.index t (0 : Fin 2) = t.val / 8 ∧ win0_6.index t (1 : Fin 2) = 0 :=
  (by decide +kernel : ∀ t : Fin grid0.N, _)
theorem idx7 : ∀ t : Fin cfg0.N, win0_7.index t (0 : Fin 2) = 0 ∧ win0_7.index t (1 : Fin 2) = t.val % 8 :=
  (by decide +kernel : ∀ t : Fin grid0.N, _)

/-! ## The blocks of rows -/

/-- Window 0's block: rows `1024 · (t / 8) + r` of its array. -/
theorem blk0_apply (c : Dev nD) (t : Fin cfg0.N) (r : Fin 1024) (k : Fin 512) :
    iblk m c 0 t (ix2 r k)
      = V m c main_v0 (ix2 (⟨1024 * (t.val / 8) + r.val, by have := t_lt t; have := r.isLt; omega⟩ : Fin 8192) k) := by
  obtain ⟨e0, e1⟩ := idx0 t
  unfold iblk
  show V m c main_v0 (((cfg0.win 0).blk t).view.emb (ix2 r k)) = _
  refine congrArg (V m c main_v0) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 512 + 1 * k.val = k.val; omega

/-- Window 1's block: rows `1024 · (t % 8) + r` of its array. -/
theorem blk1_apply (c : Dev nD) (t : Fin cfg0.N) (r : Fin 1024) (k : Fin 512) :
    iblk m c 1 t (ix2 r k)
      = V m c main_v0 (ix2 (⟨1024 * (t.val % 8) + r.val, by have := t_lt t; have := r.isLt; omega⟩ : Fin 8192) k) := by
  obtain ⟨e0, e1⟩ := idx1 t
  unfold iblk
  show V m c main_v0 (((cfg0.win 1).blk t).view.emb (ix2 r k)) = _
  refine congrArg (V m c main_v0) (funext fun a => Fin.ext ?_)
  match a with
  | ⟨0, _⟩ => show win0_1.index t (0 : Fin 2) * 1024 + 1 * r.val = 1024 * (t.val % 8) + r.val; omega
  | ⟨1, _⟩ => show win0_1.index t (1 : Fin 2) * 512 + 1 * k.val = k.val; omega

/-- Window 2's block: rows `1024 · (t / 8) + r` of its array. -/
theorem blk2_apply (c : Dev nD) (t : Fin cfg0.N) (r : Fin 1024) (k : Fin 512) :
    iblk m c 2 t (ix2 r k)
      = V m c main_v1 (ix2 (⟨1024 * (t.val / 8) + r.val, by have := t_lt t; have := r.isLt; omega⟩ : Fin 8192) k) := by
  obtain ⟨e0, e1⟩ := idx2 t
  unfold iblk
  show V m c main_v1 (((cfg0.win 2).blk t).view.emb (ix2 r k)) = _
  refine congrArg (V m c main_v1) (funext fun a => Fin.ext ?_)
  match a with
  | ⟨0, _⟩ => show win0_2.index t (0 : Fin 2) * 1024 + 1 * r.val = 1024 * (t.val / 8) + r.val; omega
  | ⟨1, _⟩ => show win0_2.index t (1 : Fin 2) * 512 + 1 * k.val = k.val; omega

/-- Window 3's block: rows `1024 · (t % 8) + r` of its array. -/
theorem blk3_apply (c : Dev nD) (t : Fin cfg0.N) (r : Fin 1024) (k : Fin 512) :
    iblk m c 3 t (ix2 r k)
      = V m c main_v1 (ix2 (⟨1024 * (t.val % 8) + r.val, by have := t_lt t; have := r.isLt; omega⟩ : Fin 8192) k) := by
  obtain ⟨e0, e1⟩ := idx3 t
  unfold iblk
  show V m c main_v1 (((cfg0.win 3).blk t).view.emb (ix2 r k)) = _
  refine congrArg (V m c main_v1) (funext fun a => Fin.ext ?_)
  match a with
  | ⟨0, _⟩ => show win0_3.index t (0 : Fin 2) * 1024 + 1 * r.val = 1024 * (t.val % 8) + r.val; omega
  | ⟨1, _⟩ => show win0_3.index t (1 : Fin 2) * 512 + 1 * k.val = k.val; omega

/-! ## The blocks of squared norms -/

/-- Window 4's block: entries `1024 · (t / 8) + r` of the column of norms. -/
theorem blk4_apply (c : Dev nD) (t : Fin cfg0.N) (r : Fin 1024) :
    iblk m c 4 t (ix2 r (0 : Fin 1))
      = V m c main_v6 (ix2 (⟨1024 * (t.val / 8) + r.val, by have := t_lt t; have := r.isLt; omega⟩ : Fin 8192) (0 : Fin 1)) := by
  obtain ⟨e0, e1⟩ := idx4 t
  unfold iblk
  show V m c main_v6 (((cfg0.win 4).blk t).view.emb (ix2 r (0 : Fin 1))) = _
  refine congrArg (V m c main_v6) (funext fun a => Fin.ext ?_)
  match a with
  | ⟨0, _⟩ => show win0_4.index t (0 : Fin 2) * 1024 + 1 * r.val = 1024 * (t.val / 8) + r.val; omega
  | ⟨1, _⟩ => show win0_4.index t (1 : Fin 2) * 1 + 1 * 0 = 0; omega

/-- Window 5's block: entries `1024 · (t % 8) + q` of the row of norms. -/
theorem blk5_apply (c : Dev nD) (t : Fin cfg0.N) (q : Fin 1024) :
    iblk m c 5 t (ix2 (0 : Fin 1) q)
      = V m c main_v7 (ix2 (0 : Fin 1) (⟨1024 * (t.val % 8) + q.val, by have := q.isLt; omega⟩ : Fin 8192)) := by
  obtain ⟨e0, e1⟩ := idx5 t
  unfold iblk
  show V m c main_v7 (((cfg0.win 5).blk t).view.emb (ix2 (0 : Fin 1) q)) = _
  refine congrArg (V m c main_v7) (funext fun a => Fin.ext ?_)
  match a with
  | ⟨0, _⟩ => show win0_5.index t (0 : Fin 2) * 1 + 1 * 0 = 0; omega
  | ⟨1, _⟩ => show win0_5.index t (1 : Fin 2) * 1024 + 1 * q.val = 1024 * (t.val % 8) + q.val; omega

/-- Window 6's block: entries `1024 · (t / 8) + r` of the column of norms. -/
theorem blk6_apply (c : Dev nD) (t : Fin cfg0.N) (r : Fin 1024) :
    iblk m c 6 t (ix2 r (0 : Fin 1))
      = V m c main_v8 (ix2 (⟨1024 * (t.val / 8) + r.val, by have := t_lt t; have := r.isLt; omega⟩ : Fin 8192) (0 : Fin 1)) := by
  obtain ⟨e0, e1⟩ := idx6 t
  unfold iblk
  show V m c main_v8 (((cfg0.win 6).blk t).view.emb (ix2 r (0 : Fin 1))) = _
  refine congrArg (V m c main_v8) (funext fun a => Fin.ext ?_)
  match a with
  | ⟨0, _⟩ => show win0_6.index t (0 : Fin 2) * 1024 + 1 * r.val = 1024 * (t.val / 8) + r.val; omega
  | ⟨1, _⟩ => show win0_6.index t (1 : Fin 2) * 1 + 1 * 0 = 0; omega

/-- Window 7's block: entries `1024 · (t % 8) + q` of the row of norms. -/
theorem blk7_apply (c : Dev nD) (t : Fin cfg0.N) (q : Fin 1024) :
    iblk m c 7 t (ix2 (0 : Fin 1) q)
      = V m c main_v9 (ix2 (0 : Fin 1) (⟨1024 * (t.val % 8) + q.val, by have := q.isLt; omega⟩ : Fin 8192)) := by
  obtain ⟨e0, e1⟩ := idx7 t
  unfold iblk
  show V m c main_v9 (((cfg0.win 7).blk t).view.emb (ix2 (0 : Fin 1) q)) = _
  refine congrArg (V m c main_v9) (funext fun a => Fin.ext ?_)
  match a with
  | ⟨0, _⟩ => show win0_7.index t (0 : Fin 2) * 1 + 1 * 0 = 0; omega
  | ⟨1, _⟩ => show win0_7.index t (1 : Fin 2) * 1024 + 1 * q.val = 1024 * (t.val % 8) + q.val; omega

/-! ## The tile of a point -/

/-- Point `t`'s tile row. -/
def tileI (t : Fin cfg0.N) : Fin 8 := ⟨t.val / 8, by have := t_lt t; omega⟩
/-- Point `t`'s tile column. -/
def tileJ (t : Fin cfg0.N) : Fin 8 := ⟨t.val % 8, by omega⟩

/-- Row `r` of point `t`'s tile row is the global row `1024 · (t / 8) + r`. -/
theorem row_tileI (t : Fin cfg0.N) (r : Fin 1024) :
    Cert.Mmd.row (tileI t) r = (⟨1024 * (t.val / 8) + r.val, by have := t_lt t; have := r.isLt; omega⟩ : Fin 8192) := rfl
/-- Row `q` of point `t`'s tile column is the global row `1024 · (t % 8) + q`. -/
theorem row_tileJ (t : Fin cfg0.N) (q : Fin 1024) :
    Cert.Mmd.row (tileJ t) q = (⟨1024 * (t.val % 8) + q.val, by have := q.isLt; omega⟩ : Fin 8192) := rfl

end Cert.Mmd.Blocks

end
-- ==== Proof.TileLink.lean ====
/-
  The tile sum over abstract blocks, taken at the rows of tile row I and tile column J of two samples with their squared
  norms, is the tile sum of the specification; so what one grid point adds is the specification's tile part.
-/
import proofs.«143083_j1580547972687_1_alg».proof.Proof.Spec
import proofs.«143083_j1580547972687_1_alg».proof.Proof.Payload

noncomputable section

open scoped BigOperators

namespace Cert.Mmd.TileLink

open Cert.Mmd Cert.Mmd.Payload

/-- The block tile sum at the blocks of rows `1024 · I + r` and `1024 · J + c` is the specification's tile sum. -/
theorem T_eq_tileSum (x y : Sample) (I J : Fin 8) :
    T (fun r => rowSq x (row I r)) (fun c => rowSq y (row J c)) (fun r k => x (row I r) k) (fun c k => y (row J c) k)
      = tileSum x y I J := rfl

/-- What one grid point adds onto the running sum is the specification's tile part. -/
theorem parts_eq_tilePart (a b : Sample) (I J : Fin 8) :
    T (fun r => rowSq a (row I r)) (fun c => rowSq a (row J c)) (fun r k => a (row I r) k) (fun c k => a (row J c) k)
      + T (fun r => rowSq b (row I r)) (fun c => rowSq b (row J c)) (fun r k => b (row I r) k) (fun c k => b (row J c) k)
      - 2 * T (fun r => rowSq a (row I r)) (fun c => rowSq b (row J c)) (fun r k => a (row I r) k) (fun c k => b (row J c) k)
      = tilePart a b I J := rfl

/-- The step of the running sum: adding one grid point's three tile sums is adding the specification's tile part. -/
theorem step_eq (a b : Sample) (I J : Fin 8) (acc : ℝ) :
    acc + (T (fun r => rowSq a (row I r)) (fun c => rowSq a (row J c)) (fun r k => a (row I r) k) (fun c k => a (row J c) k)
      + T (fun r => rowSq b (row I r)) (fun c => rowSq b (row J c)) (fun r k => b (row I r) k) (fun c k => b (row J c) k)
      - 2 * T (fun r => rowSq a (row I r)) (fun c => rowSq b (row J c)) (fun r k => a (row I r) k) (fun c k => b (row J c) k))
      = acc + tilePart a b I J := rfl

end Cert.Mmd.TileLink

end
-- ==== Proof.HostValue.lean ====
/-
  The tiled program's operations outside its region, read at the extended reals for real inputs.
  Before the region: each sample is cast to the narrower float format (no change of value here), its squared row norms
  are taken as the sum over a row of the squares, from zero, and the vector of norms is laid out once as a column
  [8192, 1] and once as a row [1, 8192] (a reshape keeps the row-major position, so entry r of the vector is entry
  (r, 0) of the column and entry (0, r) of the row). No operation writes an argument.
  After the region: the eight tile-row sums [8, 1, 1] are added up onto zero and the total is divided by the number of
  pairs 67108864 = 8192².
-/
import proofs.«143083_j1580547972687_1_alg».proof.Proof.KI.Common
import proofs.«143083_j1580547972687_1_alg».proof.Proof.Spec
import proofs.«143083_j1580547972687_1_alg».proof.Proof.Consts
import Idealize.ShloMosaic.Lib.ValueIdx
import Idealize.ShloMosaic.Lib.Pipeline.Value
import Idealize.ShloMosaic.PureOps.Ideal.Laws

noncomputable section

open scoped BigOperators

namespace Cert.Mmd.HostValue

open Cert.KernelIdeal Cert.KernelIdeal.Gen Cert.KernelIdeal.Hand
open Idealize.ShloMosaic Idealize.ShloMosaic.TcCoe Idealize.ShloMosaic.ValueIdx Idealize.SL.Sem

/-- The coercion of a finite sum of reals is the sum of the coercions. -/
theorem coe_sum {ι : Type*} [Fintype ι] (f : ι → ℝ) : ((∑ k, f k : ℝ) : EReal) = ∑ k, (f k : EReal) := by
  classical
  refine Finset.induction_on (Finset.univ : Finset ι) ?_ ?_
  · simp
  · intro k s hk ih
    rw [Finset.sum_insert hk, Finset.sum_insert hk, EReal.coe_add, ih]

/-! ## The operations' terms at an index, over plain vectors -/

/-- The squared row norms of a real sample: the sum over row `r` of the squares, from zero. -/
theorem rowNorm_apply (x : FVec Ideal S8192x512 .f32) (a : Cert.Mmd.Sample)
    (hx : ∀ (i : Fin 8192) (k : Fin 512), x (ix2 i k) = ((a i k : ℝ) : EReal)) (r : Fin 8192) :
    Host.reduceAdd (F := Ideal) (mulf x x) (constant (F := Ideal) S_ .f32 0x00000000#32) reducesTo_S8192x512_S8192_d1 h_S_ (ix1 r)
      = ((Cert.Mmd.rowSq a r : ℝ) : EReal) := by
  have e : Host.reduceAdd (F := Ideal) (mulf x x) (constant (F := Ideal) S_ .f32 0x00000000#32) reducesTo_S8192x512_S8192_d1 h_S_ (ix1 r)
      = (constant (F := Ideal) S_ .f32 0x00000000#32) (Shape.Idx.first h_S_) + ∑ k : Fin 512, (mulf x x) (ix2 r k) := by
    generalize mulf x x = y0
    simp only [Host.reduceAdd, Ideal.hostReduceAdd_def]
    rw [Ideal.hostReduceAdd_single reducesTo_S8192x512_S8192_d1 (by decide)]
    refine congrArg (_ + ·) (Finset.sum_congr rfl fun k _ => ?_)
    exact congrArg y0 (funext fun d => Fin.ext (by match d with | ⟨0, _⟩ => rfl | ⟨1, _⟩ => rfl))
  rw [e, constant_apply, Cert.Mmd.Consts.ofBits_zero, zero_add]
  unfold Cert.Mmd.rowSq
  rw [coe_sum]
  refine Finset.sum_congr rfl fun k _ => ?_
  rw [mulf_apply, hx r k, ← EReal.coe_mul]

/-- Entry `(r, 0)` of the column laid out from a vector is the vector's entry `r`. -/
theorem col_apply (y : FVec Ideal S8192 .f32) (r : Fin 8192) :
    shapeCast S8192x1 y shapeCasts_S8192_S8192x1 (ix2 r 0) = y (ix1 r) := by
  refine shapeCast_apply y shapeCasts_S8192_S8192x1 (ix2 r 0) (ix1 r) ?_
  rw [Shape.rowMajor_val_one, Shape.rowMajor_val_two]
  show r.val = r.val * 1 + 0
  omega

/-- Entry `(0, r)` of the row laid out from a vector is the vector's entry `r`. -/
theorem row_apply (y : FVec Ideal S8192 .f32) (r : Fin 8192) :
    shapeCast S1x8192 y shapeCasts_S8192_S1x8192 (ix2 0 r) = y (ix1 r) := by
  refine shapeCast_apply y shapeCasts_S8192_S1x8192 (ix2 0 r) (ix1 r) ?_
  rw [Shape.rowMajor_val_one, Shape.rowMajor_val_two]
  show r.val = 0 * 8192 + r.val
  omega

/-- The eight tile-row sums are indexed by the tile row alone. -/
def tileRowEquiv : Fin 8 ≃ S8x1x1.Idx where
  toFun I := ix3 I 0 0
  invFun j := j 0
  left_inv _ := rfl
  right_inv j := by
    funext d
    match d with
    | ⟨0, _⟩ => rfl
    | ⟨1, _⟩ => exact (Subsingleton.elim (α := Fin 1) _ _)
    | ⟨2, _⟩ => exact (Subsingleton.elim (α := Fin 1) _ _)

/-- A sum over the [8, 1, 1] index set is the sum over the eight tile rows. -/
theorem sum_tileRows {M : Type*} [AddCommMonoid M] (f : S8x1x1.Idx → M) : ∑ j, f j = ∑ I : Fin 8, f (ix3 I 0 0) :=
  (Equiv.sum_comp tileRowEquiv f).symm

/-- The operations after the region: add the eight tile-row sums onto zero, divide by the number of pairs. -/
theorem tail_term (y : FVec Ideal S8x1x1 .f32) (o : Fin 8 → ℝ) (hy : ∀ I : Fin 8, y (ix3 I 0 0) = ((o I : ℝ) : EReal)) :
    Host.divf (Host.reduceAdd (F := Ideal) y (constant (F := Ideal) S_ .f32 0x00000000#32) reducesTo_S8x1x1_S_d0_1_2 h_S_)
        (constant (F := Ideal) S_ .f32 0x4C800000#32)
      = fun _ => (((∑ I : Fin 8, o I) / 67108864 : ℝ) : EReal) := by
  funext i
  have e : Host.reduceAdd (F := Ideal) y (constant (F := Ideal) S_ .f32 0x00000000#32) reducesTo_S8x1x1_S_d0_1_2 h_S_ i
      = (constant (F := Ideal) S_ .f32 0x00000000#32) (Shape.Idx.first h_S_) + ∑ j : S8x1x1.Idx, y j := by
    simp only [Host.reduceAdd, Ideal.hostReduceAdd_def]
    exact Ideal.hostReduceAdd_total reducesTo_S8x1x1_S_d0_1_2 (fun b => b.elim0) y _ i
  have hs : Host.reduceAdd (F := Ideal) y (constant (F := Ideal) S_ .f32 0x00000000#32) reducesTo_S8x1x1_S_d0_1_2 h_S_ i
      = ((∑ I : Fin 8, o I : ℝ) : EReal) := by
    rw [e, constant_apply, Cert.Mmd.Consts.ofBits_zero, zero_add, sum_tileRows, coe_sum]
    exact Finset.sum_congr rfl fun I _ => hy I
  show FloatOps.hostDivf (Host.reduceAdd (F := Ideal) y (constant (F := Ideal) S_ .f32 0x00000000#32) reducesTo_S8x1x1_S_d0_1_2 h_S_ i)
      (constant (F := Ideal) S_ .f32 0x4C800000#32 i) = _
  rw [hs, constant_apply, Cert.Mmd.Consts.ofBits_pairs, Ideal.hostDivf_def, Ideal.div_coe (by norm_num : (67108864 : ℝ) ≠ 0),
    ← EReal.coe_mul, mul_one_div]

/-! ## Before the region: the buffers the region finds -/

section Before

variable (m : (ℓ : Loc nD τ sig) → Buf (Elt Ideal) ℓ) (c : Dev nD)

/-- No operation before the region writes the first argument. -/
theorem V_arg0 : V m c main_arg0 = m ((c.tc : Thread nD τ).loc main_arg0) := by
  show StableHlo.after hostOps0 (fun b => m (c, b)) (Proc.devRef .tc main_arg0) = _
  after_results

/-- No operation before the region writes the second argument. -/
theorem V_arg1 : V m c main_arg1 = m ((c.tc : Thread nD τ).loc main_arg1) := by
  show StableHlo.after hostOps0 (fun b => m (c, b)) (Proc.devRef .tc main_arg1) = _
  after_results

variable {a b : Cert.Mmd.Sample}

/-- The first sample cast to the narrower format: the same reals. -/
theorem V_v0 (h0 : ∀ (i : Fin 8192) (k : Fin 512), (m ((c.tc : Thread nD τ).loc main_arg0) : S8192x512.Idx → EReal) (ix2 i k) = ((a i k : ℝ) : EReal))
    (i : Fin 8192) (k : Fin 512) : (V m c main_v0 : S8192x512.Idx → EReal) (ix2 i k) = ((a i k : ℝ) : EReal) := by
  have e : @Eq (FVec Ideal S8192x512 .bf16) (V m c main_v0)
      (truncf .bf16 (m ((c.tc : Thread nD τ).loc main_arg0) : FVec Ideal S8192x512 .f32) bitsLt_bf16_f32) := by
    show StableHlo.after hostOps0 (fun b => m (c, b)) (Proc.devRef .tc main_v0) = _
    after_results
  rw [e, truncf_apply]
  exact h0 i k

/-- The second sample cast to the narrower format: the same reals. -/
theorem V_v1 (h1 : ∀ (i : Fin 8192) (k : Fin 512), (m ((c.tc : Thread nD τ).loc main_arg1) : S8192x512.Idx → EReal) (ix2 i k) = ((b i k : ℝ) : EReal))
    (i : Fin 8192) (k : Fin 512) : (V m c main_v1 : S8192x512.Idx → EReal) (ix2 i k) = ((b i k : ℝ) : EReal) := by
  have e : @Eq (FVec Ideal S8192x512 .bf16) (V m c main_v1)
      (truncf .bf16 (m ((c.tc : Thread nD τ).loc main_arg1) : FVec Ideal S8192x512 .f32) bitsLt_bf16_f32) := by
    show StableHlo.after hostOps0 (fun b => m (c, b)) (Proc.devRef .tc main_v1) = _
    after_results
  rw [e, truncf_apply]
  exact h1 i k

/-- The first sample's squared row norms as a column. -/
theorem V_v6 (h0 : ∀ (i : Fin 8192) (k : Fin 512), (m ((c.tc : Thread nD τ).loc main_arg0) : S8192x512.Idx → EReal) (ix2 i k) = ((a i k : ℝ) : EReal))
    (r : Fin 8192) : (V m c main_v6 : S8192x1.Idx → EReal) (ix2 r 0) = ((Cert.Mmd.rowSq a r : ℝ) : EReal) := by
  have e : (V m c main_v6 : S8192x1.Idx → EReal)
      = shapeCast S8192x1 (Host.reduceAdd (F := Ideal)
          (mulf (m ((c.tc : Thread nD τ).loc main_arg0) : FVec Ideal S8192x512 .f32) (m ((c.tc : Thread nD τ).loc main_arg0)))
          (constant (F := Ideal) S_ .f32 0x00000000#32) reducesTo_S8192x512_S8192_d1 h_S_) shapeCasts_S8192_S8192x1 := by
    show StableHlo.after hostOps0 (fun b => m (c, b)) (Proc.devRef .tc main_v6) = _
    after_results
    rfl
  rw [e, col_apply]
  exact rowNorm_apply _ a h0 r

/-- The first sample's squared row norms as a row. -/
theorem V_v7 (h0 : ∀ (i : Fin 8192) (k : Fin 512), (m ((c.tc : Thread nD τ).loc main_arg0) : S8192x512.Idx → EReal) (ix2 i k) = ((a i k : ℝ) : EReal))
    (r : Fin 8192) : (V m c main_v7 : S1x8192.Idx → EReal) (ix2 0 r) = ((Cert.Mmd.rowSq a r : ℝ) : EReal) := by
  have e : (V m c main_v7 : S1x8192.Idx → EReal)
      = shapeCast S1x8192 (Host.reduceAdd (F := Ideal)
          (mulf (m ((c.tc : Thread nD τ).loc main_arg0) : FVec Ideal S8192x512 .f32) (m ((c.tc : Thread nD τ).loc main_arg0)))
          (constant (F := Ideal) S_ .f32 0x00000000#32) reducesTo_S8192x512_S8192_d1 h_S_) shapeCasts_S8192_S1x8192 := by
    show StableHlo.after hostOps0 (fun b => m (c, b)) (Proc.devRef .tc main_v7) = _
    after_results
    rfl
  rw [e, row_apply]
  exact rowNorm_apply _ a h0 r

/-- The second sample's squared row norms as a column. -/
theorem V_v8 (h1 : ∀ (i : Fin 8192) (k : Fin 512), (m ((c.tc : Thread nD τ).loc main_arg1) : S8192x512.Idx → EReal) (ix2 i k) = ((b i k : ℝ) : EReal))
    (r : Fin 8192) : (V m c main_v8 : S8192x1.Idx → EReal) (ix2 r 0) = ((Cert.Mmd.rowSq b r : ℝ) : EReal) := by
  have e : (V m c main_v8 : S8192x1.Idx → EReal)
      = shapeCast S8192x1 (Host.reduceAdd (F := Ideal)
          (mulf (m ((c.tc : Thread nD τ).loc main_arg1) : FVec Ideal S8192x512 .f32) (m ((c.tc : Thread nD τ).loc main_arg1)))
          (constant (F := Ideal) S_ .f32 0x00000000#32) reducesTo_S8192x512_S8192_d1 h_S_) shapeCasts_S8192_S8192x1 := by
    show StableHlo.after hostOps0 (fun b => m (c, b)) (Proc.devRef .tc main_v8) = _
    after_results
    rfl
  rw [e, col_apply]
  exact rowNorm_apply _ b h1 r

/-- The second sample's squared row norms as a row. -/
theorem V_v9 (h1 : ∀ (i : Fin 8192) (k : Fin 512), (m ((c.tc : Thread nD τ).loc main_arg1) : S8192x512.Idx → EReal) (ix2 i k) = ((b i k : ℝ) : EReal))
    (r : Fin 8192) : (V m c main_v9 : S1x8192.Idx → EReal) (ix2 0 r) = ((Cert.Mmd.rowSq b r : ℝ) : EReal) := by
  have e : (V m c main_v9 : S1x8192.Idx → EReal)
      = shapeCast S1x8192 (Host.reduceAdd (F := Ideal)
          (mulf (m ((c.tc : Thread nD τ).loc main_arg1) : FVec Ideal S8192x512 .f32) (m ((c.tc : Thread nD τ).loc main_arg1)))
          (constant (F := Ideal) S_ .f32 0x00000000#32) reducesTo_S8192x512_S8192_d1 h_S_) shapeCasts_S8192_S1x8192 := by
    show StableHlo.after hostOps0 (fun b => m (c, b)) (Proc.devRef .tc main_v9) = _
    after_results
    rfl
  rw [e, row_apply]
  exact rowNorm_apply _ b h1 r

end Before

/-! ## After the region -/

section After

variable (W : Valuation τ sig (Elt Ideal))

/-- The result: the eight tile-row sums added up and divided by the number of pairs. -/
theorem tail_value (o : Fin 8 → ℝ)
    (hW : ∀ I : Fin 8, (W (Proc.devRef .tc main_v10) : S8x1x1.Idx → EReal) (ix3 I 0 0) = ((o I : ℝ) : EReal)) :
    (StableHlo.after (hostOps1 (F := Ideal)) W (Proc.devRef .tc main_v12) : S_.Idx → EReal)
      = fun _ => (((∑ I : Fin 8, o I) / 67108864 : ℝ) : EReal) := by
  have e : (StableHlo.after (hostOps1 (F := Ideal)) W (Proc.devRef .tc main_v12) : S_.Idx → EReal)
      = Host.divf (Host.reduceAdd (F := Ideal) (W (Proc.devRef .tc main_v10) : FVec Ideal S8x1x1 .f32)
          (constant (F := Ideal) S_ .f32 0x00000000#32) reducesTo_S8x1x1_S_d0_1_2 h_S_) (constant (F := Ideal) S_ .f32 0x4C800000#32) := by
    after_results
  rw [e]
  exact tail_term _ o hW

/-- No operation after the region writes the first argument. -/
theorem tail_arg0 : StableHlo.after (hostOps1 (F := Ideal)) W (Proc.devRef .tc main_arg0) = W (Proc.devRef .tc main_arg0) := by
  after_results

/-- No operation after the region writes the second argument. -/
theorem tail_arg1 : StableHlo.after (hostOps1 (F := Ideal)) W (Proc.devRef .tc main_arg1) = W (Proc.devRef .tc main_arg1) := by
  after_results

end After

end Cert.Mmd.HostValue

end
-- ==== Proof.OutArray.lean ====
/-
  The result array after the region. The result window is one element wide: at grid point t it sits on entry
  (t / 8, 0, 0) of the [8, 1, 1] array — the tile row of the point — and it is written back exactly at the last tile of
  a tile row (t ≡ 7 mod 8). So each of the eight entries is written back exactly once, entry I at the point 8·I + 7,
  and if what is written back at the last tile of tile row I is the number o I, the array ends holding o I at
  (I, 0, 0).
-/
import proofs.«143083_j1580547972687_1_alg».proof.Proof.KI.Body
import Idealize.ShloMosaic.Lib.ValueIdx
import Idealize.ShloMosaic.Lib.Pipeline.Value

noncomputable section

namespace Cert.Mmd.OutArray

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]

/-- The grid has 64 points, so a point's tile row is below 8. -/
theorem tileRow_lt (t : Fin cfg0.N) : t.val / 8 < 8 := by
  have h : t.val < 64 := lt_of_lt_of_eq t.isLt N_0
  omega

/-- The tile row of a grid point. -/
abbrev tileRow (t : Fin cfg0.N) : Fin 8 := ⟨t.val / 8, tileRow_lt t⟩

/-- The result window's block index at a point, decided over the grid: the tile row, then 0, 0. -/
theorem idx_facts : ∀ t : Fin cfg0.N, win0_8.index t (0 : Fin 3) = t.val / 8
    ∧ win0_8.index t (1 : Fin 3) = 0
    ∧ win0_8.index t (2 : Fin 3) = 0 :=
  (by decide +kernel : ∀ t : Fin grid0.N, _)

/-- An index of the array is in point `t`'s block iff each coordinate is in the block's range on its axis. -/
theorem mem_blk (t : Fin cfg0.N) (i : S8x1x1.Idx) :
    i ∈ ((cfg0.win 8).blk t).view.set ↔ ∀ a : Fin 3, win0_8.index t a * S1x1x1.size a ≤ (i a).val ∧ (i a).val < win0_8.index t a * S1x1x1.size a + S1x1x1.size a := by
  show i ∈ ((View.whole main_v10).slice (win0_8.rect t)).set ↔ _
  rw [View.set_slice_whole, Rect.mem_set_unit]
  exact Iff.rfl

/-- The array that has `o I` at `(I, 0, 0)`. -/
abbrev G (o : Fin 8 → Elt F .f32) : S8x1x1.Idx → Elt F .f32 := fun i => o (i 0)

variable (m : (ℓ : Loc nD τ sig) → Buf (Elt F) ℓ) (c : Dev nD) (o : Fin 8 → Elt F .f32)

/-- What the last tile of a tile row writes back is that tile row's block of the array of the `o I`. -/
theorem flushed_eq (h : ∀ t : Fin cfg0.N, t.val % 8 = 7 → ∀ j, (outsAt m c t.val t.isLt).1 j = o (tileRow t))
    (t : Fin cfg0.N) (ht : t.val % 8 = 7) :
    (dats m 0 c).flushed 8 t = ((cfg0.win 8).blk t).view.read (Elt F) (G o) := by
  show (cfg0.win 8).cut (grid0.coords t) ((dats m 0 c).after 8 t) = _
  rw [after8]
  obtain ⟨e0, e1, e2⟩ := idx_facts t
  funext j
  show (outsAt m c t.val t.isLt).1 ((cfg0.win 8).xinj (grid0.coords t) j) = o ((((cfg0.win 8).blk t).view.emb j) 0)
  refine (h t ht _).trans (congrArg o (Fin.ext ?_))
  show t.val / 8 = win0_8.index t (0 : Fin 3) * 1 + 1 * (j 0).val
  have hj : (j 0).val < 1 := (j 0).isLt
  omega

/-- Every entry of the array is in the block of some point that writes back: entry `I` in that of `8·I + 7`. -/
theorem cover (i : S8x1x1.Idx) : ∃ t : Fin cfg0.N, (cfg0.win 8).flush t = true ∧ i ∈ ((cfg0.win 8).blk t).view.set := by
  have hi0 : (i 0).val < 8 := (i 0).isLt
  have hi1 : (i 1).val < 1 := (i 1).isLt
  have hi2 : (i 2).val < 1 := (i 2).isLt
  have hN : 8 * (i 0).val + 7 < cfg0.N := lt_of_lt_of_eq (by omega : 8 * (i 0).val + 7 < 64) N_0.symm
  refine ⟨⟨8 * (i 0).val + 7, hN⟩, (flush0_8 _).mpr (by show (8 * (i 0).val + 7) % 8 = 7; omega), ?_⟩
  rw [mem_blk]
  obtain ⟨e0, e1, e2⟩ := idx_facts ⟨8 * (i 0).val + 7, hN⟩
  have e0' : win0_8.index ⟨8 * (i 0).val + 7, hN⟩ (0 : Fin 3) = (8 * (i 0).val + 7) / 8 := e0
  intro a
  match a with
  | ⟨0, _⟩ => show win0_8.index ⟨8 * (i 0).val + 7, hN⟩ (0 : Fin 3) * 1 ≤ (i 0).val ∧ (i 0).val < win0_8.index ⟨8 * (i 0).val + 7, hN⟩ (0 : Fin 3) * 1 + 1; omega
  | ⟨1, _⟩ => show win0_8.index ⟨8 * (i 0).val + 7, hN⟩ (1 : Fin 3) * 1 ≤ (i 1).val ∧ (i 1).val < win0_8.index ⟨8 * (i 0).val + 7, hN⟩ (1 : Fin 3) * 1 + 1; omega
  | ⟨2, _⟩ => show win0_8.index ⟨8 * (i 0).val + 7, hN⟩ (2 : Fin 3) * 1 ≤ (i 2).val ∧ (i 2).val < win0_8.index ⟨8 * (i 0).val + 7, hN⟩ (2 : Fin 3) * 1 + 1; omega

/-- The array after the region is the array of the `o I`. -/
theorem final (h : ∀ t : Fin cfg0.N, t.val % 8 = 7 → ∀ j, (outsAt m c t.val t.isLt).1 j = o (tileRow t)) :
    (dats m 0 c).arrAt 8 cfg0.N = G o :=
  (dats m 0 c).arrAt_eq_of_cover 8 (G o) (fun t hf => flushed_eq m c o h t ((flush0_8 t).mp hf)) cover

/-- Tile row by tile row: entry `(I, 0, 0)` of the array after the region is `o I`. -/
theorem final_apply (h : ∀ t : Fin cfg0.N, t.val % 8 = 7 → ∀ j, (outsAt m c t.val t.isLt).1 j = o (tileRow t)) (I : Fin 8) :
    ((dats m 0 c).arrAt 8 cfg0.N : S8x1x1.Idx → Elt F .f32) (ix3 I 0 0) = o I := by
  rw [final m c o h]

end Cert.Mmd.OutArray

end
-- ==== Proof.KerValue.lean ====
/-
  The tiled program's value, for real inputs.

  At a grid point `t` — tile row `I = t / 8`, tile column `J = t % 8` — the body's last store puts into the scratch the
  running sum it loaded plus `tilePart a b I J`: the blocks it loads are rows `1024·I + r` and `1024·J + q` of the two
  samples and of their squared norms, so the three tile sums of exponentials it forms are the specification's. Hence
  after the `J`-th tile of row `I` the scratch holds `rowAcc a b I (J + 1)`, at the row's last tile the result window
  receives `rowAcc a b I 8`, the result array ends as `I ↦ rowAcc a b I 8`, and the host operations after the region
  sum its eight entries and divide by 67108864: `kerVal a b`.
-/
import proofs.«143083_j1580547972687_1_alg».proof.Proof.KI.Pieces
import proofs.«143083_j1580547972687_1_alg».proof.Proof.KI.Frame
import proofs.«143083_j1580547972687_1_alg».proof.Proof.Payload
import proofs.«143083_j1580547972687_1_alg».proof.Proof.Blocks
import proofs.«143083_j1580547972687_1_alg».proof.Proof.TileLink
import proofs.«143083_j1580547972687_1_alg».proof.Proof.HostValue
import proofs.«143083_j1580547972687_1_alg».proof.Proof.OutArray
import proofs.«143083_j1580547972687_1_alg».proof.Proof.Spec

set_option maxRecDepth 16384

noncomputable section

namespace Cert.Mmd.KerValue

open Cert.KernelIdeal Cert.KernelIdeal.Gen Cert.KernelIdeal.Hand
open Idealize.ShloMosaic Idealize.ShloMosaic.TcCoe Idealize.ShloMosaic.ValueIdx Idealize.SL.Sem
open Cert.Mmd Cert.Mmd.Blocks

variable (m : (ℓ : Loc nD τ sig) → Buf (Elt Ideal) ℓ) (c : Dev nD) {a b : Sample}

/-- ONE TILE: the body's last store, on the blocks of point `t` and a scratch holding the real `acc`, is `acc` plus the
    tile's part. -/
theorem step_val (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal))
    (t : Fin cfg0.N) (acc : ℝ) (xs : Vec Ideal S1x1 .f32) (hxs : ∀ j, xs j = ((acc : ℝ) : EReal)) :
    k0_pay8 (F := Ideal) (k0_pay3 (iblk m c 0 t)) (k0_pay4 (iblk m c 0 t) (iblk m c 1 t) (iblk m c 4 t) (iblk m c 5 t)) (k0_pay5 (iblk m c 3 t)) (k0_pay6 (iblk m c 2 t) (iblk m c 3 t)) (k0_pay7 (iblk m c 6 t)) (iblk m c 7 t) (iblk m c 4 t) (iblk m c 7 t) xs
      = fun _ => ((acc + tilePart a b (tileI t) (tileJ t) : ℝ) : EReal) := by
  rw [← TileLink.step_eq a b (tileI t) (tileJ t) acc]
  exact Payload.pay8_eq (fun r k => a (row (tileI t) r) k) (fun q k => a (row (tileJ t) q) k) (fun r k => b (row (tileI t) r) k) (fun q k => b (row (tileJ t) q) k)
    (fun r => rowSq a (row (tileI t) r)) (fun q => rowSq a (row (tileJ t) q)) (fun r => rowSq b (row (tileI t) r)) (fun q => rowSq b (row (tileJ t) q)) acc
    (iblk m c 0 t) (iblk m c 1 t) (iblk m c 2 t) (iblk m c 3 t) (iblk m c 4 t) (iblk m c 6 t) (iblk m c 4 t) (iblk m c 5 t) (iblk m c 7 t) (iblk m c 7 t) xs
    (fun r k => (blk0_apply m c t r k).trans (HostValue.V_v0 m c h0 _ k))
    (fun r k => (blk1_apply m c t r k).trans (HostValue.V_v0 m c h0 _ k))
    (fun r k => (blk2_apply m c t r k).trans (HostValue.V_v1 m c h1 _ k))
    (fun r k => (blk3_apply m c t r k).trans (HostValue.V_v1 m c h1 _ k))
    (fun r => (blk4_apply m c t r).trans (HostValue.V_v6 m c h0 _))
    (fun q => (blk5_apply m c t q).trans (HostValue.V_v7 m c h0 _))
    (fun r => (blk6_apply m c t r).trans (HostValue.V_v8 m c h1 _))
    (fun q => (blk7_apply m c t q).trans (HostValue.V_v9 m c h1 _))
    (fun r => (blk4_apply m c t r).trans (HostValue.V_v6 m c h0 _))
    (fun q => (blk7_apply m c t q).trans (HostValue.V_v9 m c h1 _))
    hxs

/-- The scratch after the first tile of a row. -/
theorem scr_first (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal))
    (t : Fin cfg0.N) (ht : t.val % 8 = 0) :
    (outsAt m c t.val t.isLt).2 = fun _ => ((0 + tilePart a b (tileI t) (tileJ t) : ℝ) : EReal) := by
  rw [outsAt_A m c t ht (by omega)]
  dsimp only
  rw [soutA_eq]
  exact step_val m c h0 h1 t 0 _ (fun j => (congrFun Payload.pay2_eq j).trans EReal.coe_zero.symm)

/-- The scratch after any later tile of a row, from what it held after the tile before. -/
theorem scr_next (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal))
    (t : Fin cfg0.N) (ht : ¬t.val % 8 = 0) (acc : ℝ)
    (hprev : (outsAt m c (t.val - 1) (Nat.lt_of_le_of_lt (Nat.sub_le _ _) t.isLt)).2 = fun _ => ((acc : ℝ) : EReal)) :
    (outsAt m c t.val t.isLt).2 = fun _ => ((acc + tilePart a b (tileI t) (tileJ t) : ℝ) : EReal) := by
  by_cases h7 : t.val % 8 = 7
  · rw [outsAt_C m c t ht h7]
    dsimp only
    rw [soutC_eq]
    exact step_val m c h0 h1 t acc _ (fun j => congrFun hprev j)
  · rw [outsAt_B m c t ht h7]
    dsimp only
    rw [soutB_eq]
    exact step_val m c h0 h1 t acc _ (fun j => congrFun hprev j)

/-- The result window after the last tile of a row. -/
theorem out_last (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal))
    (t : Fin cfg0.N) (h7 : t.val % 8 = 7) (acc : ℝ)
    (hprev : (outsAt m c (t.val - 1) (Nat.lt_of_le_of_lt (Nat.sub_le _ _) t.isLt)).2 = fun _ => ((acc : ℝ) : EReal)) :
    (outsAt m c t.val t.isLt).1 = fun _ => ((acc + tilePart a b (tileI t) (tileJ t) : ℝ) : EReal) := by
  rw [outsAt_C m c t (by omega) h7]
  dsimp only
  rw [outC_eq]
  exact Payload.pay1_eq _ _ (fun j => congrFun (step_val m c h0 h1 t acc _ (fun j => congrFun hprev j)) j)

/-- `outsAt` depends on the position only. -/
theorem outsAt_congr {n n' : ℕ} (h : n = n') (hn : n < cfg0.N) (hn' : n' < cfg0.N) : outsAt m c n hn = outsAt m c n' hn' := by
  subst h; rfl

/-- THE RUNNING SUM: after tile `J` of tile row `I` the scratch holds `rowAcc a b I (J + 1)`. -/
theorem acc_at (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal)) (I : Fin 8) :
    ∀ (J : ℕ) (hJ : J < 8) (hn : 8 * I.val + J < cfg0.N), (outsAt m c (8 * I.val + J) hn).2 = fun _ => ((rowAcc a b I (J + 1) : ℝ) : EReal)
  | 0, hJ, hn => by
    have e := scr_first m c h0 h1 ⟨8 * I.val + 0, hn⟩ (by show (8 * I.val + 0) % 8 = 0; omega)
    have hI : tileI (⟨8 * I.val + 0, hn⟩ : Fin cfg0.N) = I := Fin.ext (by show (8 * I.val + 0) / 8 = I.val; omega)
    have hJ0 : tileJ (⟨8 * I.val + 0, hn⟩ : Fin cfg0.N) = ⟨0, hJ⟩ := Fin.ext (by show (8 * I.val + 0) % 8 = 0; omega)
    rw [hI, hJ0] at e
    refine e.trans ?_
    show _ = fun _ => ((rowAcc a b I 0 + (if h : 0 < 8 then tilePart a b I ⟨0, h⟩ else 0) : ℝ) : EReal)
    rw [dif_pos hJ]; rfl
  | J + 1, hJ, hn => by
    have ih := acc_at h0 h1 I J (by omega) (by omega)
    have hprev : (outsAt m c ((⟨8 * I.val + (J + 1), hn⟩ : Fin cfg0.N).val - 1) (Nat.lt_of_le_of_lt (Nat.sub_le _ _) (⟨8 * I.val + (J + 1), hn⟩ : Fin cfg0.N).isLt)).2
        = fun _ => ((rowAcc a b I (J + 1) : ℝ) : EReal) := by
      rw [outsAt_congr m c (show (⟨8 * I.val + (J + 1), hn⟩ : Fin cfg0.N).val - 1 = 8 * I.val + J from by show 8 * I.val + (J + 1) - 1 = _; omega) _ (by omega)]
      exact ih
    have e := scr_next m c h0 h1 ⟨8 * I.val + (J + 1), hn⟩ (by show ¬(8 * I.val + (J + 1)) % 8 = 0; omega) _ hprev
    have hI : tileI (⟨8 * I.val + (J + 1), hn⟩ : Fin cfg0.N) = I := Fin.ext (by show (8 * I.val + (J + 1)) / 8 = I.val; omega)
    have hJ1 : tileJ (⟨8 * I.val + (J + 1), hn⟩ : Fin cfg0.N) = ⟨J + 1, hJ⟩ := Fin.ext (by show (8 * I.val + (J + 1)) % 8 = J + 1; omega)
    rw [hI, hJ1] at e
    refine e.trans ?_
    show _ = fun _ => ((rowAcc a b I (J + 1) + (if h : J + 1 < 8 then tilePart a b I ⟨J + 1, h⟩ else 0) : ℝ) : EReal)
    rw [dif_pos hJ]

/-- THE RESULT WINDOW at the last tile of tile row `t / 8`: the row's whole sum. -/
theorem out_row (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal))
    (t : Fin cfg0.N) (h7 : t.val % 8 = 7) (j) :
    (outsAt m c t.val t.isLt).1 j = ((rowAcc a b (tileI t) 8 : ℝ) : EReal) := by
  have hlt : t.val < 64 := t_lt t
  have hprev : (outsAt m c (t.val - 1) (Nat.lt_of_le_of_lt (Nat.sub_le _ _) t.isLt)).2 = fun _ => ((rowAcc a b (tileI t) 7 : ℝ) : EReal) := by
    rw [outsAt_congr m c (show t.val - 1 = 8 * (tileI t).val + 6 from by show t.val - 1 = 8 * (t.val / 8) + 6; omega) _ (lt_of_lt_of_eq (by omega : 8 * (t.val / 8) + 6 < 64) (show (64 : ℕ) = cfg0.N from N_0.symm))]
    exact acc_at m c h0 h1 (tileI t) 6 (by omega) _
  have e := congrFun (out_last m c h0 h1 t h7 _ hprev) j
  have hJ7 : tileJ t = ⟨7, by omega⟩ := Fin.ext h7
  rw [hJ7] at e
  refine e.trans ?_
  show _ = ((rowAcc a b (tileI t) 7 + (if h : 7 < 8 then tilePart a b (tileI t) ⟨7, h⟩ else 0) : ℝ) : EReal)
  rw [dif_pos (by omega)]

/-- THE VALUE: what the host operations after the region leave in the result buffer is `kerVal a b`. -/
theorem final (h0 : ∀ (i : Fin 8192) (k : Fin 512), m ((c.tc : Thread nD τ).loc main_arg0) (ix2 i k) = ((a i k : ℝ) : EReal))
    (h1 : ∀ (i : Fin 8192) (k : Fin 512), m ((c.tc : Thread nD τ).loc main_arg1) (ix2 i k) = ((b i k : ℝ) : EReal)) :
    StableHlo.after (hostOps1 (F := Ideal)) (Vfin m c) (Proc.devRef .tc main_v12) = fun _ => ((kerVal a b : ℝ) : EReal) := by
  have hW : ∀ I : Fin 8, Vfin m c (Proc.devRef .tc main_v10) (ix3 I 0 0) = ((rowAcc a b I 8 : ℝ) : EReal) := fun I => by
    rw [Vfin_v10]
    unfold outFinal
    exact OutArray.final_apply m c (fun I => ((rowAcc a b I 8 : ℝ) : EReal)) (fun t ht j => out_row m c h0 h1 t ht j) I
  rw [HostValue.tail_value (Vfin m c) (fun I => rowAcc a b I 8) hW]
  rfl

end Cert.Mmd.KerValue

end
-- ==== Proof.RefValue.lean ====
/-
  The reference's value. The reference computes three Gaussian kernel means by one and the same chain of operations —
  row norms, Gram matrix through a transpose, squared distance, negate, divide by 1024, exponential, total sum, divide
  by the number of pairs — once for the pair (a, a), once for (b, b), once for (a, b), and combines them as
  mean(a,a) + mean(b,b) − 2 · mean(a,b). The chain is read once, for a general pair (x, y); the two diagonal copies are
  the same chain at (x, x) and (y, y) by definition. Every input entry is a coerced real, so every intermediate value is
  a coerced real and the coercion is pushed outward through each operation.
-/
import proofs.«143083_j1580547972687_1_alg».proof.Proof.Gen.ReferenceIdeal.Read
import proofs.«143083_j1580547972687_1_alg».proof.Proof.Spec
import proofs.«143083_j1580547972687_1_alg».proof.Proof.Consts

noncomputable section

open scoped BigOperators

namespace Cert.Mmd.RefValue

open Cert.ReferenceIdeal Cert.ReferenceIdeal.Gen Cert.ReferenceIdeal.Read Idealize.ShloMosaic Idealize.ShloMosaic.ValueIdx

/-- The coercion of a finite sum of reals is the sum of the coercions. -/
theorem coe_sum {ι : Type*} [Fintype ι] (f : ι → ℝ) : ((∑ k, f k : ℝ) : EReal) = ∑ k, (f k : EReal) := by
  classical
  refine Finset.induction_on (Finset.univ : Finset ι) ?_ ?_
  · simp
  · intro k s hk ih
    rw [Finset.sum_insert hk, Finset.sum_insert hk, EReal.coe_add, ih]

/-- An input whose entries are the coerced entries of the real sample `a`. -/
def IsSample (x : (⟨S8192x512, .f32⟩ : BufTy).Contents (Elt Ideal)) (a : Cert.Mmd.Sample) : Prop :=
  ∀ (i : Fin 8192) (k : Fin 512), x (ix2 i k) = ((a i k : ℝ) : EReal)

variable {a b : Cert.Mmd.Sample} {x y : (⟨S8192x512, .f32⟩ : BufTy).Contents (Elt Ideal)}

/-- Row norms: the sum over a row of the squares, from zero. -/
theorem rowSq_val (hx : IsSample x a) (r : Fin 8192) :
    val_main_v41 (F := Ideal) x (ix1 r) = ((Cert.Mmd.rowSq a r : ℝ) : EReal) := by
  rw [val_main_v41_apply, val_main_cst_11_apply, Ideal.ofBits_def, Cert.Mmd.Consts.ofBits_zero, zero_add]
  unfold Cert.Mmd.rowSq
  rw [coe_sum]
  refine Finset.sum_congr rfl fun k _ => ?_
  have e : idx_main_v41 (ix1 r) k = ix2 r k := funext fun d => by
    match d with
    | ⟨0, _⟩ => rfl
    | ⟨1, _⟩ => rfl
  rw [val_main_v40_apply, e, hx r k, Ideal.mulf_def, ← EReal.coe_mul]

/-- The second operand's row norms are the same chain. -/
theorem rowSq_val' (hy : IsSample y b) (c : Fin 8192) :
    val_main_v43 (F := Ideal) y (ix1 c) = ((Cert.Mmd.rowSq b c : ℝ) : EReal) :=
  rowSq_val hy c

/-- The Gram matrix: the product with the transpose is the inner product of the two rows. -/
theorem gram_val (hx : IsSample x a) (hy : IsSample y b) (r c : Fin 8192) :
    val_main_v45 (F := Ideal) x y (ix2 r c) = ((Cert.Mmd.gram a b r c : ℝ) : EReal) := by
  rw [val_main_v45_apply]
  unfold Cert.Mmd.gram
  rw [coe_sum]
  refine Finset.sum_congr rfl fun k _ => ?_
  have el : lidx_main_v45 (ix2 r c) k = ix2 r k := funext fun d => by
    match d with
    | ⟨0, _⟩ => rfl
    | ⟨1, _⟩ => rfl
  have er : idx_main_v44 (ridx_main_v45 (ix2 r c) k) = ix2 c k := funext fun d => by
    match d with
    | ⟨0, _⟩ => rfl
    | ⟨1, _⟩ => rfl
  rw [val_main_v44_apply, el, er, hx r k, hy c k, ← EReal.coe_mul]

/-- The squared distance through the Gram matrix. -/
theorem sqd_val (hx : IsSample x a) (hy : IsSample y b) (r c : Fin 8192) :
    val_main_v53 (F := Ideal) x y (ix2 r c) = ((Cert.Mmd.sqd a b r c : ℝ) : EReal) := by
  have e0 : idx_main_v46 (idx_main_v48 (ix2 r c)) = ix1 r := funext fun d => by
    match d with
    | ⟨0, _⟩ => rfl
  have e1 : idx_main_v47 (idx_main_v49 (ix2 r c)) = ix1 c := funext fun d => by
    match d with
    | ⟨0, _⟩ => rfl
  rw [val_main_v53_apply, val_main_v50_apply, val_main_v52_apply, val_main_v48_apply, val_main_v46_apply,
    val_main_v49_apply, val_main_v47_apply, val_main_v51_apply, val_main_cst_13_apply, e0, e1, rowSq_val hx r,
    rowSq_val' hy c, gram_val hx hy r c, Ideal.ofBits_def, Cert.Mmd.Consts.ofBits_two, Ideal.subf_def, Ideal.addf_def,
    Ideal.mulf_def, ← EReal.coe_add, ← EReal.coe_mul, ← EReal.coe_sub]
  rfl

/-- Negate, divide by 1024, exponentiate. -/
theorem exp_val (hx : IsSample x a) (hy : IsSample y b) (r c : Fin 8192) :
    val_main_v57 (F := Ideal) x y (ix2 r c) = ((Real.exp (-(Cert.Mmd.sqd a b r c) / 1024) : ℝ) : EReal) := by
  rw [val_main_v57_apply, val_main_v56_apply, val_main_v54_apply, val_main_v55_apply, val_main_cst_14_apply,
    sqd_val hx hy r c, Ideal.ofBits_def, Cert.Mmd.Consts.ofBits_1024, Ideal.hostNegf_def, Ideal.negf_def, Ideal.hostDivf_def,
    Ideal.hostUnary_exp_def, ← EReal.coe_neg, Ideal.div_coe (by norm_num : (1024 : ℝ) ≠ 0), ← EReal.coe_mul, Ideal.exp_coe,
    mul_one_div]

/-- The kernel mean of the pair. -/
theorem kmean_val (hx : IsSample x a) (hy : IsSample y b) (i : S_.Idx) :
    val_main_v59 (F := Ideal) x y i = ((Cert.Mmd.kmean a b : ℝ) : EReal) := by
  rw [val_main_v59_apply, val_main_v58_apply, val_main_cst_15_apply, val_main_cst_16_apply, Ideal.ofBits_def, Ideal.ofBits_def,
    Cert.Mmd.Consts.ofBits_zero, Cert.Mmd.Consts.ofBits_pairs, zero_add, sum_idx2]
  have e : (∑ r : Fin 8192, ∑ c : Fin 8192, val_main_v57 (F := Ideal) x y (ix2 r c))
      = ((∑ r : Fin 8192, ∑ c : Fin 8192, Real.exp (-(Cert.Mmd.sqd a b r c) / 1024) : ℝ) : EReal) := by
    rw [coe_sum]
    refine Finset.sum_congr rfl fun r _ => ?_
    rw [coe_sum]
    refine Finset.sum_congr rfl fun c _ => ?_
    exact exp_val hx hy r c
  rw [e, Ideal.hostDivf_def, Ideal.div_coe (by norm_num : (67108864 : ℝ) ≠ 0), ← EReal.coe_mul, mul_one_div]
  rfl

/-- The first diagonal copy is the same chain at (x, x). -/
theorem kmean_val_aa (hx : IsSample x a) (i : S_.Idx) :
    val_main_v19 (F := Ideal) x i = ((Cert.Mmd.kmean a a : ℝ) : EReal) :=
  kmean_val hx hx i

/-- The second diagonal copy is the same chain at (y, y). -/
theorem kmean_val_bb (hy : IsSample y b) (i : S_.Idx) :
    val_main_v39 (F := Ideal) y i = ((Cert.Mmd.kmean b b : ℝ) : EReal) :=
  kmean_val hy hy i

/-- The reference's result is the coerced real loss at its one index. -/
theorem ref_value (a b : Cert.Mmd.Sample) (x0 x1 : (⟨S8192x512, .f32⟩ : BufTy).Contents (Elt Ideal))
    (h0 : ∀ (i : Fin 8192) (k : Fin 512), x0 (ix2 i k) = ((a i k : ℝ) : EReal))
    (h1 : ∀ (i : Fin 8192) (k : Fin 512), x1 (ix2 i k) = ((b i k : ℝ) : EReal)) :
    val_main_v62 (F := Ideal) x0 x1 = fun _ => ((Cert.Mmd.refVal a b : ℝ) : EReal) := by
  funext i
  rw [val_main_v62_apply, val_main_v60_apply, val_main_v61_apply, val_main_cst_17_apply, kmean_val_aa h0, kmean_val_bb h1,
    kmean_val h0 h1, Ideal.ofBits_def, Cert.Mmd.Consts.ofBits_two, Ideal.subf_def, Ideal.addf_def, Ideal.mulf_def,
    ← EReal.coe_add, ← EReal.coe_mul, ← EReal.coe_sub]
  rfl

end Cert.Mmd.RefValue

end
-- ==== Proof.Finite.lean ====
/-
  Finiteness: the precondition says that both inputs have every entry of absolute value below +∞ (two "all" reductions by
  "and", joined by "and"). Over the extended reals an element whose absolute value max x (−x) is below +∞ is neither +∞
  nor −∞, so it is (the coercion of) a real. Hence both inputs are coerced real samples.
-/
import proofs.«143083_j1580547972687_1_alg».proof.Pre_finite_inputs
import proofs.«143083_j1580547972687_1_alg».proof.Proof.Spec
import Idealize.ShloMosaic.Lib.ReduceAll
import Idealize.ShloMosaic.Lib.ValueIdx
import Idealize.ShloMosaic.Lib.Pipeline.Value
import Idealize.ShloMosaic.PureOps.Ideal

noncomputable section

namespace Cert.Mmd.Finite

open Idealize.ShloMosaic Cert.Pre_finite_inputs

/-- The scalar shape has one index. -/
instance subsingleton_scalar_idx : Subsingleton S_.Idx := ⟨fun a b => funext fun d => d.elim0⟩

/-- The bit pattern of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One "all |x| < +∞" reduction that came out true makes every entry of `x` a real. -/
theorem entry_real [Facts] (x : FVec Ideal S8192x512 .f32)
    (h : Host.reduce IntOp.andi
          (cmpf .olt (Host.absf x) (broadcastInDim S8192x512 ![] Facts.bcast_S_S8192x512 (constant (F := Ideal) S_ .f32 0x7F800000#32)))
          (constantI S_ 1 1#1) Facts.reducesTo_S8192x512_S_d0_1 Facts.h_S_ ValueIdx.ix0 = 1#1)
    (i : S8192x512.Idx) : ∃ r : ℝ, x i = (r : EReal) := by
  have e := Host.reduce_andi_all _ _ Facts.reducesTo_S8192x512_S_d0_1 Facts.h_S_ ValueIdx.ix0 h i
  rw [ValueIdx.cmpf_apply,
    broadcastInDim_apply _ Facts.bcast_S_S8192x512 _ i (fun a => a.elim0) (fun a => a.elim0),
    ValueIdx.constant_apply, ofBits_inf] at e
  refine real_of_abs_lt_top (x i) ?_
  have e' : Ideal.cmp .olt (max (x i) (-(x i))) ⊤ = 1#1 := e
  unfold Ideal.cmp at e'
  by_contra hlt
  simp [hlt] at e'

/-- Under the precondition both inputs are coerced real samples. -/
theorem real_of_pre [Facts] (x0 x1 : FVec Ideal S8192x512 .f32)
    (h : Cert.Pre_finite_inputs.fn (F := Ideal) x0 x1 = (fun _ => 1#1)) :
    ∃ a b : Cert.Mmd.Sample,
      (∀ i k, x0 (ValueIdx.ix2 i k) = ((a i k : ℝ) : EReal)) ∧ (∀ i k, x1 (ValueIdx.ix2 i k) = ((b i k : ℝ) : EReal)) := by
  have h0 := congrFun h ValueIdx.ix0
  dsimp only [Cert.Pre_finite_inputs.fn] at h0
  obtain ⟨ha, hb⟩ := IntOp.andi_eq_one.1 h0
  have ra := fun i => entry_real x0 ha i
  have rb := fun i => entry_real x1 hb i
  choose fa hfa using ra
  choose fb hfb using rb
  exact ⟨fun i k => fa (ValueIdx.ix2 i k), fun i k => fb (ValueIdx.ix2 i k), fun i k => hfa _, fun i k => hfb _⟩

end Cert.Mmd.Finite

end
-- ==== Proof.Law.lean ====
/-
  The real-number law: the tiled value equals the reference value.

  The 8192 rows are cut into 8 blocks of 1024 through `i = 1024 · I + r`; a double sum over all pairs of rows is the
  sum over the 8 × 8 tiles of the double sums over the 1024 × 1024 pairs of each tile. The running sum of a tile row is
  the sum of its eight tile parts, the exponent `−d / 1024` is the product `d · (−1/1024)`, and sums are linear.
-/
import Mathlib.Analysis.SpecialFunctions.Exp
import Mathlib.Algebra.BigOperators.Fin
import Mathlib.Logic.Equiv.Fin.Basic
import proofs.«143083_j1580547972687_1_alg».proof.Proof.Spec

noncomputable section

open scoped BigOperators

namespace Cert.Mmd.Law

open Cert.Mmd

/-- A sum over the 8192 rows, block by block. -/
theorem sum_rows (g : Fin 8192 → ℝ) : ∑ i : Fin 8192, g i = ∑ I : Fin 8, ∑ r : Fin 1024, g (row I r) := by
  have e : (∑ i : Fin 8192, g i) = ∑ p : Fin 8 × Fin 1024, g (finProdFinEquiv (m := 8) (n := 1024) p) :=
    (Equiv.sum_comp (finProdFinEquiv (m := 8) (n := 1024)) g).symm
  rw [e, Fintype.sum_prod_type]
  refine Finset.sum_congr rfl (fun I _ => Finset.sum_congr rfl (fun r _ => ?_))
  congr 1
  apply Fin.ext
  simp [row, finProdFinEquiv]
  omega

/-- A sum over all pairs of rows, tile by tile. -/
theorem sum_pairs (f : Fin 8192 → Fin 8192 → ℝ) :
    ∑ i : Fin 8192, ∑ j : Fin 8192, f i j
      = ∑ I : Fin 8, ∑ J : Fin 8, ∑ r : Fin 1024, ∑ c : Fin 1024, f (row I r) (row J c) := by
  rw [sum_rows]
  refine Finset.sum_congr rfl (fun I _ => ?_)
  rw [Finset.sum_comm]
  rw [sum_rows (fun j => ∑ r : Fin 1024, f (row I r) j)]
  refine Finset.sum_congr rfl (fun J _ => ?_)
  rw [Finset.sum_comm]

/-- The sum of the Gaussian kernel over all pairs is the sum of the tile sums. -/
theorem sum_exp_tiles (x y : Sample) :
    ∑ i : Fin 8192, ∑ j : Fin 8192, Real.exp (-(sqd x y i j) / 1024) = ∑ I : Fin 8, ∑ J : Fin 8, tileSum x y I J := by
  rw [sum_pairs]
  refine Finset.sum_congr rfl (fun I _ => Finset.sum_congr rfl (fun J _ => ?_))
  unfold tileSum
  refine Finset.sum_congr rfl (fun r _ => Finset.sum_congr rfl (fun c _ => ?_))
  congr 1
  ring

/-- The running sum of a tile row after its eight tiles is the sum of the eight tile parts. -/
theorem rowAcc_eight (a b : Sample) (I : Fin 8) : rowAcc a b I 8 = ∑ J : Fin 8, tilePart a b I J := by
  simp [rowAcc, Fin.sum_univ_eight]

/-- The tiled value is the reference value. -/
theorem kerVal_eq_refVal (a b : Sample) : kerVal a b = refVal a b := by
  unfold kerVal refVal kmean
  rw [sum_exp_tiles a a, sum_exp_tiles b b, sum_exp_tiles a b]
  simp only [rowAcc_eight, tilePart, Finset.sum_add_distrib, Finset.sum_sub_distrib, ← Finset.mul_sum]
  ring

end Cert.Mmd.Law

end
-- ==== Proof.lean ====
/-
  A Gaussian-kernel MMD loss, tiled, against its plain reference.

  Both programs take two samples `a`, `b` of 8192 rows in R^512 and return
  `mean_ij exp(−‖a_i − a_j‖²/1024) + mean_ij exp(−‖b_i − b_j‖²/1024) − 2 · mean_ij exp(−‖a_i − b_j‖²/1024)`,
  the squared distance taken through the Gram matrix, `‖x_i‖² + ‖y_j‖² − 2⟨x_i, y_j⟩`.
  The reference forms the three 8192 × 8192 matrices whole and takes three means. The tiled program cuts the pairs into
  8 × 8 tiles of 1024 × 1024; at each tile it forms the three tile sums, combines them as `aa + bb − 2·ab`, adds the
  result to a running sum kept per tile row, writes the row's sum out at the row's last tile, and at the end adds the
  eight row sums and divides once by 8192² — with the exponent's `/1024` spelled as a product with `−1/1024`.

  Every input being finite, every value either program meets is a real number, and over the reals the two spellings are
  one number: sums regroup freely, the division distributes over the three sums, and `x · (−1/1024) = −x / 1024`.

  The frames: each program runs to its end without a fault and leaves its two arguments as they were. For the tiled
  program that is the pipeline's own account of its run — twelve host operations, the 64-point region, four host
  operations — for any reading of its floats, so it serves the program as printed and its idealization alike.
  The idealization rewrote nothing, so there is nothing to preserve.
-/
import proofs.«143083_j1580547972687_1_alg».proof.Defs
import proofs.«143083_j1580547972687_1_alg».proof.Proof.Gen.Kernel
import proofs.«143083_j1580547972687_1_alg».proof.Proof.Gen.KernelIdeal
import proofs.«143083_j1580547972687_1_alg».proof.Proof.Gen.ReferenceIdeal
import proofs.«143083_j1580547972687_1_alg».proof.Proof.Gen.Pre_finite_inputs
import proofs.«143083_j1580547972687_1_alg».proof.Proof.Gen.ReferenceIdeal.Read
import proofs.«143083_j1580547972687_1_alg».proof.Proof.K.Frame
import proofs.«143083_j1580547972687_1_alg».proof.Proof.KI.Frame
import proofs.«143083_j1580547972687_1_alg».proof.Proof.KerValue
import proofs.«143083_j1580547972687_1_alg».proof.Proof.RefValue
import proofs.«143083_j1580547972687_1_alg».proof.Proof.Finite
import proofs.«143083_j1580547972687_1_alg».proof.Proof.Law
import Idealize.ShloMosaic.Adequacy
import Idealize.ShloMosaic.Init

noncomputable section

namespace Cert.Proof

open Idealize.ShloMosaic Idealize.ShloMosaic.TcCoe Idealize.SL.Sem

/-- The tiled program as printed runs, and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs, and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the tiled program's result is `kerVal a b`, the reference's `refVal a b`, and these are one real. -/
theorem algebraic : Cert.algebraic_KernelIdeal_ReferenceIdeal := by
  intro m ρ m' ρ' hpre hagree
  choose a b h0 h1 using fun c : Dev Cert.KernelIdeal.nD =>
    Cert.Mmd.Finite.real_of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hpre c)
  refine ⟨fun c => fun _ => ((Cert.Mmd.kerVal (a c) (b c) : ℝ) : EReal), ?_, ?_⟩
  · exact (θ_run Cert.KernelIdeal.defs _ _).mono
      (fun _ h c => ⟨(h c).1.trans (Cert.Mmd.KerValue.final m c (h0 c) (h1 c)), (h c).2⟩)
      (Cert.KernelIdeal.Hand.run (F := Ideal) m ρ)
  · refine (θ_run Cert.ReferenceIdeal.defs _ _).mono (fun _ h c => ⟨?_, (h c).2⟩)
      (Cert.ReferenceIdeal.Value.run (F := Ideal) m' ρ')
    show _ = fun _ => ((Cert.Mmd.kerVal (a c) (b c) : ℝ) : EReal)
    rw [Cert.Mmd.Law.kerVal_eq_refVal, (h c).1, Cert.ReferenceIdeal.Read.val_main_v62_eq, (hagree c).1, (hagree c).2]
    exact Cert.Mmd.RefValue.ref_value (a c) (b c) _ _ (h0 c) (h1 c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
